-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x160000 : Shape := ⟨2, ![2, 160000]⟩
abbrev S128x512 : Shape := ⟨2, ![128, 512]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64x128 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S10000x512 .f32) (main_arg1 : IVec S2x160000 32) (main_arg2 : FVec F S128x512 .f32) (main_arg3 : FVec F S128x512 .f32) (main_arg4 : FVec F S128 .f32) (main_arg5 : FVec F S64x128 .f32) (main_arg6 : FVec F S64x128 .f32) (main_arg7 : FVec F S64 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128x512 .f32 := Host.absf main_arg3
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S10000x512 : Shape := ⟨2, ![10000, 512]⟩
abbrev S2x160000 : Shape := ⟨2, ![2, 160000]⟩
abbrev S128x512 : Shape := ⟨2, ![128, 512]⟩
abbrev S128 : Shape := ⟨1, ![128]⟩
abbrev S64x128 : Shape := ⟨2, ![64, 128]⟩
abbrev S64 : Shape := ⟨1, ![64]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S10000x128 : Shape := ⟨2, ![10000, 128]⟩
abbrev S2000x512 : Shape := ⟨2, ![2000, 512]⟩
abbrev S2000x128 : Shape := ⟨2, ![2000, 128]⟩
abbrev S160000x128 : Shape := ⟨2, ![160000, 128]⟩
abbrev S10000x1 : Shape := ⟨2, ![10000, 1]⟩
abbrev S1x128 : Shape := ⟨2, ![1, 128]⟩
abbrev S10000x64 : Shape := ⟨2, ![10000, 64]⟩
abbrev S2000x64 : Shape := ⟨2, ![2000, 64]⟩
abbrev S160000x64 : Shape := ⟨2, ![160000, 64]⟩
abbrev S1x64 : Shape := ⟨2, ![1, 64]⟩

abbrev nBuf : Space → Nat
  | .hbm => 66
  | .vmem => 30
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S128x512, .f32⟩
  | .hbm, ⟨3, _⟩ => ⟨S128x512, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S_, .f32⟩
  | .hbm, ⟨13, _⟩ => ⟨S160000, .f32⟩
  | .hbm, ⟨14, _⟩ => ⟨S_, .f32⟩
  | .hbm, ⟨15, _⟩ => ⟨S10000, .f32⟩
  | .hbm, ⟨16, _⟩ => ⟨S160000x1, .i32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x128, .bf16⟩
  | .hbm, ⟨25, _⟩ => ⟨S10000x128, .f32⟩
  | .hbm, ⟨26, _⟩ => ⟨S_, .i32⟩
  | .hbm, ⟨27, _⟩ => ⟨S160000, .i32⟩
  | .hbm, ⟨28, _⟩ => ⟨S160000, .i1⟩
  | .hbm, ⟨29, _⟩ => ⟨S_, .i32⟩
  | .hbm, ⟨30, _⟩ => ⟨S160000, .i32⟩
  | .hbm, ⟨31, _⟩ => ⟨S160000, .i32⟩
  | .hbm, ⟨32, _⟩ => ⟨S160000, .i32⟩
  | .hbm, ⟨33, _⟩ => ⟨S160000x1, .i32⟩
  | .hbm, ⟨34, _⟩ => ⟨S160000x128, .bf16⟩
  | .hbm, ⟨35, _⟩ => ⟨S160000x128, .f32⟩
  | .hbm, ⟨36, _⟩ => ⟨S_, .f32⟩
  | .hbm, ⟨37, _⟩ => ⟨S10000x128, .f32⟩
  | .hbm, ⟨38, _⟩ => ⟨S160000x1, .i32⟩
  | .hbm, ⟨39, _⟩ => ⟨S10000x128, .f32⟩
  | .hbm, ⟨40, _⟩ => ⟨S10000x1, .f32⟩
  | .hbm, ⟨41, _⟩ => ⟨S10000x128, .f32⟩
  | .hbm, ⟨42, _⟩ => ⟨S10000x128, .f32⟩
  | .hbm, ⟨43, _⟩ => ⟨S1x128, .f32⟩
  | .hbm, ⟨44, _⟩ => ⟨S10000x128, .f32⟩
  | .hbm, ⟨45, _⟩ => ⟨S10000x64, .bf16⟩
  | .hbm, ⟨46, _⟩ => ⟨S10000x64, .f32⟩
  | .hbm, ⟨47, _⟩ => ⟨S_, .i32⟩
  | .hbm, ⟨48, _⟩ => ⟨S160000, .i32⟩
  | .hbm, ⟨49, _⟩ => ⟨S160000, .i1⟩
  | .hbm, ⟨50, _⟩ => ⟨S_, .i32⟩
  | .hbm, ⟨51, _⟩ => ⟨S160000, .i32⟩
  | .hbm, ⟨52, _⟩ => ⟨S160000, .i32⟩
  | .hbm, ⟨53, _⟩ => ⟨S160000, .i32⟩
  | .hbm, ⟨54, _⟩ => ⟨S160000x1, .i32⟩
  | .hbm, ⟨55, _⟩ => ⟨S160000x64, .bf16⟩
  | .hbm, ⟨56, _⟩ => ⟨S160000x64, .f32⟩
  | .hbm, ⟨57, _⟩ => ⟨S_, .f32⟩
  | .hbm, ⟨58, _⟩ => ⟨S10000x64, .f32⟩
  | .hbm, ⟨59, _⟩ => ⟨S160000x1, .i32⟩
  | .hbm, ⟨60, _⟩ => ⟨S10000x64, .f32⟩
  | .hbm, ⟨61, _⟩ => ⟨S10000x1, .f32⟩
  | .hbm, ⟨62, _⟩ => ⟨S10000x64, .f32⟩
  | .hbm, ⟨63, _⟩ => ⟨S10000x64, .f32⟩
  | .hbm, ⟨64, _⟩ => ⟨S1x64, .f32⟩
  | .hbm, ⟨65, _⟩ => ⟨S10000x64, .f32⟩
  | .local _ .vmem, ⟨0, _⟩ => ⟨S2000x512, .f32⟩
  | .local _ .vmem, ⟨1, _⟩ => ⟨S2000x512, .f32⟩
  | .local _ .vmem, ⟨2, _⟩ => ⟨S128x512, .f32⟩
  | .local _ .vmem, ⟨3, _⟩ => ⟨S128x512, .f32⟩
  | .local _ .vmem, ⟨4, _⟩ => ⟨S2000x128, .bf16⟩
  | .local _ .vmem, ⟨5, _⟩ => ⟨S2000x128, .bf16⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S1x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S64x128, .f32⟩
  | .local _ .vmem, ⟨18, _⟩ => ⟨S64x128, .f32⟩
  | .local _ .vmem, ⟨19, _⟩ => ⟨S2000x64, .bf16⟩
  | .local _ .vmem, ⟨20, _⟩ => ⟨S2000x64, .bf16⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S1x64, .f32⟩
  | .local _ .vmem, ⟨28, _⟩ => ⟨S2000x64, .f32⟩
  | .local _ .vmem, ⟨29, _⟩ => ⟨S2000x64, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29_0 : Ref sig .tc := ⟨.hbm, 45, rfl⟩
abbrev main_v29_1 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S10000x128 : S_.BroadcastsInDim S10000x128 (![] : Fin 0 → Fin S10000x128.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S64x128_S64x128_0_0 : ∀ a, (![0, 0] : Fin 2 → Nat) a + S64x128.size a ≤ S64x128.size a
  h_S64x128 : 0 < S64x128.numel
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S10000x64 : S_.BroadcastsInDim S10000x64 (![] : Fin 0 → Fin S10000x64.rank)
  bcast_S10000x1_S10000x64_0_1 : S10000x1.BroadcastsInDim S10000x64 (![0, 1] : Fin 2 → Fin S10000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S10000_S160000x1_S160000_n_0_0_1_wf : ScatterDims.WF S10000 S160000x1 S160000 [] [0] [0] 1
  dot_S2000x512_S128x512_S2000x128_1_1_0_0_n_n_wf : DotDims.WF S2000x512 S128x512 S2000x128 [1] [1] [0] [0] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  dot_S2000x128_S64x128_S2000x64_1_1_0_0_n_n_wf : DotDims.WF S2000x128 S64x128 S2000x64 [1] [1] [0] [0] [] []
  gather_S10000x64_S160000x1_S160000x64_1_0_n_n_0_1_164_wf : GatherDims.WF S10000x64 S160000x1 S160000x64 [1] [0] [] [0] [] 1 ![1, 64]
  scatter_S10000x64_S160000x1_S160000x64_1_0_0_1_wf : ScatterDims.WF S10000x64 S160000x1 S160000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .bf16 = 32 ∨ (Rect.block (s := S10000x128) S2000x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S10000x128.size a
  hwx0_4 : ∀ i : grid0.Coords, EltTy.bits .f32 = 32 ∨ (Rect.block (s := S10000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S10000x128.size a
  hwx1_3 : ∀ i : grid1.Coords, EltTy.bits .f32 = 32 ∨ (Rect.block (s := S10000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S10000x128.size a
  hwx2_0 : ∀ i : grid2.Coords, EltTy.bits .f32 = 32 ∨ (Rect.block (s := S10000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S10000x64.size a
  hwx2_3 : ∀ i : grid2.Coords, EltTy.bits .bf16 = 32 ∨ (Rect.block (s := S10000x64) S2000x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x64.size a ≤ S10000x64.size a
  hwx2_4 : ∀ i : grid2.Coords, EltTy.bits .f32 = 32 ∨ (Rect.block (s := S10000x64) S2000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S10000x64.size a
  hwx3_0 : ∀ i : grid3.Coords, EltTy.bits .f32 = 32 ∨ (Rect.block (s := S10000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S10000x64.size a
  hwx3_1 : ∀ i : grid3.Coords, EltTy.bits .f32 = 32 ∨ (Rect.block (s := S10000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S10000x64.size a
  hwx3_3 : ∀ i : grid3.Coords, EltTy.bits .f32 = 32 ∨ (Rect.block (s := S10000x64) S2000x64.size (cc3_transform_3 i) (hinb3_3 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S2000x512_S128x512_S2000x128_1_1_0_0_n_n : DotDims S2000x512 S128x512 S2000x128 where
  lhsContracting := [1]
  rhsContracting := [1]
  lhsNonContracting := [0]
  rhsNonContracting := [0]
  lhsBatch := []
  rhsBatch := []
  wf := dot_S2000x512_S128x512_S2000x128_1_1_0_0_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S2000x128_S64x128_S2000x64_1_1_0_0_n_n : DotDims S2000x128 S64x128 S2000x64 where
  lhsContracting := [1]
  rhsContracting := [1]
  lhsNonContracting := [0]
  rhsNonContracting := [0]
  lhsBatch := []
  rhsBatch := []
  wf := dot_S2000x128_S64x128_S2000x64_1_1_0_0_n_n_wf
def gather_S10000x64_S160000x1_S160000x64_1_0_n_n_0_1_164 : GatherDims S10000x64 S160000x1 S160000x64 where
  offsetDims := [1]
  collapsedSliceDims := [0]
  operandBatchingDims := []
  startIndicesBatchingDims := []
  startIndexMap := [0]
  indexVectorDim := 1
  sliceSizes := ![1, 64]
  wf := gather_S10000x64_S160000x1_S160000x64_1_0_n_n_0_1_164_wf
def scatter_S10000x64_S160000x1_S160000x64_1_0_0_1 : ScatterDims S10000x64 S160000x1 S160000x64 where
  updateWindowDims := [1]
  insertedWindowDims := [0]
  scatterDimsToOperandDims := [0]
  indexVectorDim := 1
  wf := scatter_S10000x64_S160000x1_S160000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29_0) S2000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v29_1) S2000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v43) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v29_1) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v44) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x512 : Shape := ⟨2, ![10000, 512]⟩
abbrev S2x160000 : Shape := ⟨2, ![2, 160000]⟩
abbrev S128x512 : Shape := ⟨2, ![128, 512]⟩
abbrev S128 : Shape := ⟨1, ![128]⟩
abbrev S64x128 : Shape := ⟨2, ![64, 128]⟩
abbrev S64 : Shape := ⟨1, ![64]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S10000 : Shape := ⟨1, ![10000]⟩
abbrev S10000x1 : Shape := ⟨2, ![10000, 1]⟩
abbrev S512x128 : Shape := ⟨2, ![512, 128]⟩
abbrev S10000x128 : Shape := ⟨2, ![10000, 128]⟩
abbrev S1x128 : Shape := ⟨2, ![1, 128]⟩
abbrev S160000x128 : Shape := ⟨2, ![160000, 128]⟩
abbrev S128x64 : Shape := ⟨2, ![128, 64]⟩
abbrev S10000x64 : Shape := ⟨2, ![10000, 64]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x160000, .i32⟩
  | .hbm, ⟨2, _⟩ => ⟨S128x512, .f32⟩
  | .hbm, ⟨3, _⟩ => ⟨S128x512, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S64, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S_, .i32⟩
  | .hbm, ⟨13, _⟩ => ⟨S160000, .i32⟩
  | .hbm, ⟨14, _⟩ => ⟨S160000, .i1⟩
  | .hbm, ⟨15, _⟩ => ⟨S_, .i32⟩
  | .hbm, ⟨16, _⟩ => ⟨S160000, .i32⟩
  | .hbm, ⟨17, _⟩ => ⟨S160000, .i32⟩
  | .hbm, ⟨18, _⟩ => ⟨S160000, .i32⟩
  | .hbm, ⟨19, _⟩ => ⟨S160000x1, .i32⟩
  | .hbm, ⟨20, _⟩ => ⟨S160000x512, .f32⟩
  | .hbm, ⟨21, _⟩ => ⟨S_, .f32⟩
  | .hbm, ⟨22, _⟩ => ⟨S10000x512, .f32⟩
  | .hbm, ⟨23, _⟩ => ⟨S160000x1, .i32⟩
  | .hbm, ⟨24, _⟩ => ⟨S10000x512, .f32⟩
  | .hbm, ⟨25, _⟩ => ⟨S_, .f32⟩
  | .hbm, ⟨26, _⟩ => ⟨S160000, .f32⟩
  | .hbm, ⟨27, _⟩ => ⟨S_, .f32⟩
  | .hbm, ⟨28, _⟩ => ⟨S10000, .f32⟩
  | .hbm, ⟨29, _⟩ => ⟨S160000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x512, .f32⟩
  | .hbm, ⟨36, _⟩ => ⟨S10000x512, .f32⟩
  | .hbm, ⟨37, _⟩ => ⟨S512x128, .f32⟩
  | .hbm, ⟨38, _⟩ => ⟨S10000x128, .f32⟩
  | .hbm, ⟨39, _⟩ => ⟨S512x128, .f32⟩
  | .hbm, ⟨40, _⟩ => ⟨S10000x128, .f32⟩
  | .hbm, ⟨41, _⟩ => ⟨S10000x128, .f32⟩
  | .hbm, ⟨42, _⟩ => ⟨S1x128, .f32⟩
  | .hbm, ⟨43, _⟩ => ⟨S10000x128, .f32⟩
  | .hbm, ⟨44, _⟩ => ⟨S10000x128, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S_, .i32⟩
  | .hbm, ⟨49, _⟩ => ⟨S160000, .i32⟩
  | .hbm, ⟨50, _⟩ => ⟨S160000, .i1⟩
  | .hbm, ⟨51, _⟩ => ⟨S_, .i32⟩
  | .hbm, ⟨52, _⟩ => ⟨S160000, .i32⟩
  | .hbm, ⟨53, _⟩ => ⟨S160000, .i32⟩
  | .hbm, ⟨54, _⟩ => ⟨S160000, .i32⟩
  | .hbm, ⟨55, _⟩ => ⟨S160000x1, .i32⟩
  | .hbm, ⟨56, _⟩ => ⟨S160000x128, .f32⟩
  | .hbm, ⟨57, _⟩ => ⟨S_, .f32⟩
  | .hbm, ⟨58, _⟩ => ⟨S10000x128, .f32⟩
  | .hbm, ⟨59, _⟩ => ⟨S160000x1, .i32⟩
  | .hbm, ⟨60, _⟩ => ⟨S10000x128, .f32⟩
  | .hbm, ⟨61, _⟩ => ⟨S_, .f32⟩
  | .hbm, ⟨62, _⟩ => ⟨S160000, .f32⟩
  | .hbm, ⟨63, _⟩ => ⟨S_, .f32⟩
  | .hbm, ⟨64, _⟩ => ⟨S10000, .f32⟩
  | .hbm, ⟨65, _⟩ => ⟨S160000x1, .i32⟩
  | .hbm, ⟨66, _⟩ => ⟨S10000, .f32⟩
  | .hbm, ⟨67, _⟩ => ⟨S_, .f32⟩
  | .hbm, ⟨68, _⟩ => ⟨S10000, .f32⟩
  | .hbm, ⟨69, _⟩ => ⟨S10000, .f32⟩
  | .hbm, ⟨70, _⟩ => ⟨S10000x1, .f32⟩
  | .hbm, ⟨71, _⟩ => ⟨S10000x128, .f32⟩
  | .hbm, ⟨72, _⟩ => ⟨S10000x128, .f32⟩
  | .hbm, ⟨73, _⟩ => ⟨S128x64, .f32⟩
  | .hbm, ⟨74, _⟩ => ⟨S10000x64, .f32⟩
  | .hbm, ⟨75, _⟩ => ⟨S128x64, .f32⟩
  | .hbm, ⟨76, _⟩ => ⟨S10000x64, .f32⟩
  | .hbm, ⟨77, _⟩ => ⟨S10000x64, .f32⟩
  | .hbm, ⟨78, _⟩ => ⟨S1x64, .f32⟩
  | .hbm, ⟨79, _⟩ => ⟨S10000x64, .f32⟩
  | .hbm, ⟨80, _⟩ => ⟨S10000x64, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x512 : S_.BroadcastsInDim S10000x512 (![] : Fin 0 → Fin S10000x512.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  transposes_S128x512_S512x128_1_0 : S128x512.Transposes [1, 0] S512x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  transposes_S64x128_S128x64_1_0 : S64x128.Transposes [1, 0] S128x64
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1
  scatter_S10000_S160000x1_S160000_n_0_0_1_wf : ScatterDims.WF S10000 S160000x1 S160000 [] [0] [0] 1
  dot_S10000x512_S512x128_S10000x128_1_0_0_1_n_n_wf : DotDims.WF S10000x512 S512x128 S10000x128 [1] [0] [0] [1] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  dot_S10000x128_S128x64_S10000x64_1_0_0_1_n_n_wf : DotDims.WF S10000x128 S128x64 S10000x64 [1] [0] [0] [1] [] []

variable [Facts₀]

def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.KernelRun.lean ====
/-
  The idealized kernel's run with its result named.

  The program is four kernel regions among stretches of host operations. Its run is the chain of those segments from
  the launch memory; the generated frame folds the buffer contents through the chain (the contents at the last boundary
  are `Gen.W7`) and reads the argument arrays off the final state. Here the same chain is read at the result buffer as
  well: after the run it holds `Gen.W7`'s contents there, and the arguments are as launched.
-/
import proofs.«145033_j42176578846858_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer then holds the contents the
    chain of segments leaves there and every argument array is as launched. -/
theorem run_main : θ_run defs (onTc (τ := τ) (main (F := F))) ⟨m, fun _ => 0, ρ⟩ (fun r => ∀ c : Dev nD,
      r.2.mem ((c.tc : Thread nD τ).loc main_v45) = W7 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v45 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c)⟩)

end Cert.KernelIdeal.Run

end
-- ==== Proof.LibMatmulNT.lean ====
/-
  A matrix product that contracts the LAST axis of both operands, read at an index.

  For an R × K array a and a C × K array b, the matrix unit's product into a zero accumulator with dimension numbers
  "contract axis 1 of a with axis 1 of b" (a · bᵀ) has at (p, q) the entry Σ_d a(p, d) · b(q, d): over the extended
  reals the product is that exact sum, whatever the operands' formats.

  General: nothing here mentions a program.
-/
import Idealize.ShloMosaic.PureOps.Ideal
import Idealize.ShloMosaic.PureOps.Ideal.Laws
import Idealize.ShloMosaic.Lib.ValueIdx

noncomputable section

open scoped BigOperators

namespace Cert.LibMatmulNT

open Idealize.ShloMosaic Idealize.ShloMosaic.ValueIdx

/-- The dimension numbers of a · bᵀ: a is R × K, b is C × K, the result R × C; no batch axis. -/
abbrev ntDims (R K C : Nat)
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

section
variable {R K C : Nat} (wf : DotDims.WF ⟨2, ![R, K]⟩ ⟨2, ![C, K]⟩ ⟨2, ![R, C]⟩ [1] [1] [0] [0] [] [])

/-- The left operand's row is the result's row. -/
theorem lhs_zero (j : (⟨2, ![R, C]⟩ : Shape).Idx) (k : (ntDims R K C wf).contr.Idx) :
    ((ntDims R K C wf).lhsIdx j k 0).val = (j 0).val := by
  unfold DotDims.lhsIdx
  rw [dif_neg (show ¬ (0 : Fin 2) ∈ (ntDims R K C wf).lhsBatch from List.not_mem_nil),
    dif_pos (show (0 : Fin 2) ∈ (ntDims R K C wf).lhsNonContracting from List.mem_singleton.mpr rfl)]
  rfl

/-- The right operand's row is the result's column. -/
theorem rhs_zero (j : (⟨2, ![R, C]⟩ : Shape).Idx) (k : (ntDims R K C wf).contr.Idx) :
    ((ntDims R K C wf).rhsIdx j k 0).val = (j 1).val := by
  unfold DotDims.rhsIdx
  rw [dif_neg (show ¬ (0 : Fin 2) ∈ (ntDims R K C wf).rhsBatch from List.not_mem_nil),
    dif_pos (show (0 : Fin 2) ∈ (ntDims R K C wf).rhsNonContracting from List.mem_singleton.mpr rfl)]
  rfl

end

/-- a · bᵀ into zero, read at (p, q): the sum over the shared axis. -/
theorem matmul_nt_zero_apply {φ₁ φ₂ : FTy} {R K C : Nat}
    (wf : DotDims.WF ⟨2, ![R, K]⟩ ⟨2, ![C, K]⟩ ⟨2, ![R, C]⟩ [1] [1] [0] [0] [] [])
    (prec : Option ContractPrecision) (a : FVec Ideal ⟨2, ![R, K]⟩ φ₁) (b : FVec Ideal ⟨2, ![C, K]⟩ φ₂)
    (p : Fin R) (q : Fin C) :
    FloatOps.matmul (ntDims R K C wf) prec a b (constant ⟨2, ![R, C]⟩ .f32 0x00000000#32) (ix2 p q)
      = ∑ d : Fin K, a (ix2 p d) * b (ix2 q d) := by
  rw [Ideal.matmul_constant_zero_apply, ← Equiv.sum_comp (contrEquiv1 (ntDims R K C wf) K rfl rfl).symm]
  refine Finset.sum_congr rfl fun k _ => ?_
  have hk := contrEquiv1_symm_val (ntDims R K C wf) K rfl rfl k
  have el : (ntDims R K C wf).lhsIdx (ix2 p q) ((contrEquiv1 (ntDims R K C wf) K rfl rfl).symm k) = ix2 p k := by
    funext x; refine Fin.ext ?_; revert x
    exact Fin.forall_fin_two.2 ⟨lhs_zero wf _ _, ((ntDims R K C wf).lhsIdx_val_of_single rfl _ _).trans hk⟩
  have er : (ntDims R K C wf).rhsIdx (ix2 p q) ((contrEquiv1 (ntDims R K C wf) K rfl rfl).symm k) = ix2 q k := by
    funext x; refine Fin.ext ?_; revert x
    exact Fin.forall_fin_two.2 ⟨rhs_zero wf _ _, ((ntDims R K C wf).rhsIdx_val_of_single rfl _ _).trans hk⟩
  rw [el, er]

end Cert.LibMatmulNT

end
-- ==== Proof.Arrays.lean ====
/-
  The whole-array functions the kernel's regions compute, on the extended reals.

  `rowsT x W` is x · Wᵀ: entry (n, k) is Σ_d x(n, d) · W(k, d). `addBias a y b` adds two N × C arrays and a 1 × C
  row entry by entry; `addBiasMax` then takes the maximum with `z`. Every entry depends on ONE row of the N-row
  operands, which is why a kernel may compute these a block of rows at a time.
-/
import Idealize.ShloMosaic.PureOps.Ideal
import Idealize.ShloMosaic.Lib.ValueIdx

noncomputable section

open scoped BigOperators

namespace Cert.Sage

open Idealize.ShloMosaic Idealize.ShloMosaic.ValueIdx

/-- x · Wᵀ. -/
def rowsT {N K C : Nat} (x : (⟨2, ![N, K]⟩ : Shape).Idx → EReal) (W : (⟨2, ![C, K]⟩ : Shape).Idx → EReal) :
    (⟨2, ![N, C]⟩ : Shape).Idx → EReal :=
  fun i => ∑ d : Fin K, x (ix2 (⟨(i 0).val, (i 0).isLt⟩ : Fin N) d) * W (ix2 (⟨(i 1).val, (i 1).isLt⟩ : Fin C) d)

theorem rowsT_apply {N K C : Nat} (x : (⟨2, ![N, K]⟩ : Shape).Idx → EReal) (W : (⟨2, ![C, K]⟩ : Shape).Idx → EReal)
    (n : Fin N) (k : Fin C) : rowsT x W (ix2 n k) = ∑ d : Fin K, x (ix2 n d) * W (ix2 k d) := rfl

/-- a + y + (the row b on every row). -/
def addBias {N C : Nat} (a y : (⟨2, ![N, C]⟩ : Shape).Idx → EReal) (b : (⟨2, ![1, C]⟩ : Shape).Idx → EReal) :
    (⟨2, ![N, C]⟩ : Shape).Idx → EReal :=
  fun i => a i + y i + b (ix2 (0 : Fin 1) (⟨(i 1).val, (i 1).isLt⟩ : Fin C))

theorem addBias_apply {N C : Nat} (a y : (⟨2, ![N, C]⟩ : Shape).Idx → EReal) (b : (⟨2, ![1, C]⟩ : Shape).Idx → EReal)
    (n : Fin N) (k : Fin C) : addBias a y b (ix2 n k) = a (ix2 n k) + y (ix2 n k) + b (ix2 (0 : Fin 1) k) := rfl

/-- max(a + y + b, z) entry by entry. -/
def addBiasMax {N C : Nat} (a y : (⟨2, ![N, C]⟩ : Shape).Idx → EReal) (b : (⟨2, ![1, C]⟩ : Shape).Idx → EReal)
    (z : EReal) : (⟨2, ![N, C]⟩ : Shape).Idx → EReal :=
  fun i => max (addBias a y b i) z

theorem addBiasMax_apply {N C : Nat} (a y : (⟨2, ![N, C]⟩ : Shape).Idx → EReal) (b : (⟨2, ![1, C]⟩ : Shape).Idx → EReal)
    (z : EReal) (n : Fin N) (k : Fin C) :
    addBiasMax a y b z (ix2 n k) = max (a (ix2 n k) + y (ix2 n k) + b (ix2 (0 : Fin 1) k)) z := rfl

end Cert.Sage

end
-- ==== Proof.Region0.lean ====
/-
  The first matrix-product region, at any contents V the region is entered with.

  The region walks the node rows in five blocks of 2000. At a block it reads the block's rows of x and the two weight
  matrices whole, and writes the block's rows of x · W_lᵀ and of x · W_rᵀ. A row of a product depends on that row of x
  only, so each written block is the same block of the whole product, and the five blocks tile the 10000 rows: after
  the region the two output arrays hold x · W_lᵀ and x · W_rᵀ.
-/
import proofs.«145033_j42176578846858_2_alg».proof.Proof.Gen.KernelIdeal.Frame
import proofs.«145033_j42176578846858_2_alg».proof.Proof.LibMatmulNT
import proofs.«145033_j42176578846858_2_alg».proof.Proof.Arrays
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The product's f32 payload at an entry: the sum over the 512 features. -/
theorem pay2_at (x0 : Vec Ideal S2000x512 .f32) (x2 : Vec Ideal S128x512 .f32) (y : S2000x128.Idx) :
    k0_pay2 x0 x2 y = ∑ d : Fin 512, x0 (ix2 (⟨(y 0).val, (y 0).isLt⟩ : Fin 2000) d) * x2 (ix2 (⟨(y 1).val, (y 1).isLt⟩ : Fin 128) d) := by
  obtain ⟨p, q, rfl⟩ : ∃ (p : Fin 2000) (q : Fin 128), y = ix2 p q := ⟨y 0, y 1, eq_ix2 y⟩
  exact Cert.LibMatmulNT.matmul_nt_zero_apply dot_S2000x512_S128x512_S2000x128_1_1_0_0_n_n_wf none x0 x2 p q

/-- The product's bf16 payload at an entry: the same sum (a change of format is the identity). -/
theorem pay3_at (x0 : Vec Ideal S2000x512 .f32) (x1 : Vec Ideal S128x512 .f32) (y : S2000x128.Idx) :
    k0_pay3 x0 x1 y = ∑ d : Fin 512, x0 (ix2 (⟨(y 0).val, (y 0).isLt⟩ : Fin 2000) d) * x1 (ix2 (⟨(y 1).val, (y 1).isLt⟩ : Fin 128) d) := by
  show k0_pay2 x0 x1 y = _
  exact pay2_at x0 x1 y

/-- The printed index maps over the five grid points: x's block and both outputs' blocks are block t of the rows,
    the weights' block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point t writes back through window 4 is block t of x · W_rᵀ. -/
theorem flushed4_eq (c : Dev nD) (t : Fin cfg0.N) :
    (dat0 V c).flushed 4 t = ((cfg0.win 4).blk t).view.read (Elt Ideal) (rowsT (V c main_arg0) (V c main_arg3)) := by
  show (cfg0.win 4).cut (grid0.coords t) ((dat0 V c).after 4 t) = _
  rw [after0_4]
  unfold out0_4
  rw [View.canon_unit_zero hz]
  simp only [View.ld_unit_zero (S := S2000x512) hz, View.ld_unit_zero (S := S128x512) hz]
  obtain ⟨e00, e01, e10, e11, e20, e21, e30, e31, e40, e41⟩ := idx_facts t
  funext j
  refine (pay2_at _ _ j).trans ?_
  rw [View.read_apply]
  unfold rowsT
  refine Finset.sum_congr rfl fun d _ => ?_
  unfold iblk0
  rw [View.read_apply, View.read_apply]
  have h0 : ((cfg0.win 0).blk t).view.emb (ix2 (⟨(j 0).val, (j 0).isLt⟩ : Fin 2000) d)
      = ix2 (⟨(((cfg0.win 4).blk t).view.emb j 0).val, (((cfg0.win 4).blk t).view.emb j 0).isLt⟩ : Fin 10000) d := by
    funext a; apply Fin.ext
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 512 + 1 * d.val = d.val; omega
  have h2 : ((cfg0.win 2).blk t).view.emb (ix2 (⟨(j 1).val, (j 1).isLt⟩ : Fin 128) d)
      = ix2 (⟨(((cfg0.win 4).blk t).view.emb j 1).val, (((cfg0.win 4).blk t).view.emb j 1).isLt⟩ : Fin 128) d := by
    funext a; apply Fin.ext
    match a with
    | ⟨0, _⟩ => show win0_2.index t (0 : Fin 2) * 128 + 1 * (j 1).val = win0_4.index t (1 : Fin 2) * 128 + 1 * (j 1).val; omega
    | ⟨1, _⟩ => show win0_2.index t (1 : Fin 2) * 512 + 1 * d.val = d.val; omega
  exact congrArg₂ (· * ·) (congrArg (V c main_arg0) h0) (congrArg (V c main_arg3) h2)

/-- What point t writes back through window 3 is block t of x · W_lᵀ. -/
theorem flushed3_eq (c : Dev nD) (t : Fin cfg0.N) :
    (dat0 V c).flushed 3 t = ((cfg0.win 3).blk t).view.read (Elt Ideal) (rowsT (V c main_arg0) (V c main_arg2)) := by
  show (cfg0.win 3).cut (grid0.coords t) ((dat0 V c).after 3 t) = _
  rw [after0_3]
  unfold out0_3
  rw [View.canon_unit_zero hz]
  simp only [View.ld_unit_zero (S := S2000x512) hz, View.ld_unit_zero (S := S128x512) hz]
  obtain ⟨e00, e01, e10, e11, e20, e21, e30, e31, e40, e41⟩ := idx_facts t
  funext j
  refine (pay3_at _ _ j).trans ?_
  rw [View.read_apply]
  unfold rowsT
  refine Finset.sum_congr rfl fun d _ => ?_
  unfold iblk0
  rw [View.read_apply, View.read_apply]
  have h0 : ((cfg0.win 0).blk t).view.emb (ix2 (⟨(j 0).val, (j 0).isLt⟩ : Fin 2000) d)
      = ix2 (⟨(((cfg0.win 3).blk t).view.emb j 0).val, (((cfg0.win 3).blk t).view.emb j 0).isLt⟩ : Fin 10000) d := by
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 512 + 1 * d.val = d.val; omega
  have h1 : ((cfg0.win 1).blk t).view.emb (ix2 (⟨(j 1).val, (j 1).isLt⟩ : Fin 128) d)
      = ix2 (⟨(((cfg0.win 3).blk t).view.emb j 1).val, (((cfg0.win 3).blk t).view.emb j 1).isLt⟩ : Fin 128) d := by
    funext a; apply Fin.ext
    match a with
    | ⟨0, _⟩ => show win0_1.index t (0 : Fin 2) * 128 + 1 * (j 1).val = win0_3.index t (1 : Fin 2) * 128 + 1 * (j 1).val; omega
    | ⟨1, _⟩ => show win0_1.index t (1 : Fin 2) * 512 + 1 * d.val = d.val; omega
  exact congrArg₂ (· * ·) (congrArg (V c main_arg0) h0) (congrArg (V c main_arg2) h1)

/-- An index of the array is in point t's block of window 3 iff each coordinate is in the block's range. -/
theorem mem_blk3 (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v12_0).slice (win0_3.rect t)).set ↔ _
  rw [View.set_slice_whole, Rect.mem_set_unit]
  exact Iff.rfl

/-- The same for window 4. -/
theorem mem_blk4 (t : Fin cfg0.N) (i : S10000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v12_1).slice (win0_4.rect t)).set ↔ _
  rw [View.set_slice_whole, Rect.mem_set_unit]
  exact Iff.rfl

/-- Row r lies in the block of point r / 2000: the five blocks cover the array. -/
theorem cover3 (i : S10000x128.Idx) : ∃ t : Fin cfg0.N, (cfg0.win 3).flush t = true ∧ i ∈ ((cfg0.win 3).blk t).view.set := by
  have hi0 : (i 0).val < 10000 := (i 0).isLt
  have hi1 : (i 1).val < 128 := (i 1).isLt
  have hN : cfg0.N = 5 := N_0
  obtain ⟨t, htv⟩ : ∃ t : Fin cfg0.N, t.val = (i 0).val / 2000 := ⟨⟨(i 0).val / 2000, by rw [hN]; omega⟩, rfl⟩
  obtain ⟨e00, e01, e10, e11, e20, e21, e30, e31, e40, e41⟩ := idx_facts t
  refine ⟨t, flush0_3 t, ?_⟩
  rw [mem_blk3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

theorem cover4 (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  have hN : cfg0.N = 5 := N_0
  obtain ⟨t, htv⟩ : ∃ t : Fin cfg0.N, t.val = (i 0).val / 2000 := ⟨⟨(i 0).val / 2000, by rw [hN]; omega⟩, rfl⟩
  obtain ⟨e00, e01, e10, e11, e20, e21, e30, e31, e40, e41⟩ := idx_facts t
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- After the region the bf16 output array holds x · W_lᵀ. -/
theorem final3 (c : Dev nD) : (dat0 V c).arrAt 3 cfg0.N = rowsT (V c main_arg0) (V c main_arg2) :=
  (dat0 V c).arrAt_eq_of_cover 3 (rowsT (V c main_arg0) (V c main_arg2)) (fun t _ => flushed3_eq V c t) cover3

/-- After the region the f32 output array holds x · W_rᵀ. -/
theorem final4 (c : Dev nD) : (dat0 V c).arrAt 4 cfg0.N = rowsT (V c main_arg0) (V c main_arg3) :=
  (dat0 V c).arrAt_eq_of_cover 4 (rowsT (V c main_arg0) (V c main_arg3)) (fun t _ => flushed4_eq V c t) cover4

end Cert.KernelIdeal.Region0

end
-- ==== Proof.Region1.lean ====
/-
  The first combine region, at any contents V the region is entered with.

  At block t of 2000 node rows the region reads the block's rows of the aggregated array a and of the array y, and the
  bias row b whole, and writes max(a + y + b, 0) entry by entry. Each entry of the result depends on the same entry of a
  and y and on one entry of b, so each written block is that block of the whole array max(a + y + b, 0); the five blocks
  tile the 10000 rows.
-/
import proofs.«145033_j42176578846858_2_alg».proof.Proof.Gen.KernelIdeal.Frame
import proofs.«145033_j42176578846858_2_alg».proof.Proof.Arrays
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at an entry: the two blocks' entries and the bias entry of that column, added, then the
    maximum with zero (the casts to the same shape are the identity; the bias row is repeated on every row). -/
theorem pay1_at (v0 v2 : Vec Ideal S2000x128 .f32) (v5 : Vec Ideal S1x128 .f32) (y : S2000x128.Idx) :
    k1_pay1 v0 v2 v5 y = max (v0 y + v2 y + v5 (ix2 (0 : Fin 1) (⟨(y 1).val, (y 1).isLt⟩ : Fin 128))) 0 := by
  have e4 : broadcastTo S2000x128 v5 broadcasts_S1x128_S2000x128 y = v5 (ix2 (0 : Fin 1) (⟨(y 1).val, (y 1).isLt⟩ : Fin 128)) :=
    broadcastTo_apply v5 broadcasts_S1x128_S2000x128 y _ (fun a => by
      match a with
      | ⟨0, _⟩ => show (0 : Nat) = if (1 : Nat) = 1 then 0 else _; rw [if_pos rfl]
      | ⟨1, _⟩ => show (y 1).val = if (128 : Nat) = 1 then 0 else (y 1).val; rw [if_neg (by decide)])
  unfold k1_pay1
  rw [shapeCast_self, shapeCast_self, shapeCast_self]
  show max (v0 y + v2 y + broadcastTo S2000x128 v5 broadcasts_S1x128_S2000x128 y) (Ideal.ofBits .f32 0x00000000#32) = _
  rw [e4, Ideal.ofBits_zero_f32]

/-- The printed index maps over the five grid points: both inputs' blocks and the output's block are block t of the
    rows, the bias row's block is the whole row. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of max(a + y + b, 0). -/
theorem flushed3_eq (c : Dev nD) (t : Fin cfg1.N) :
    (dat1 V c).flushed 3 t = ((cfg1.win 3).blk t).view.read (Elt Ideal) (addBiasMax (V c main_v26) (V c main_v12_1) (V c main_v27) 0) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz]
  obtain ⟨e00, e01, e10, e11, e20, e21, e30, e31⟩ := idx_facts t
  funext j
  refine (pay1_at _ _ _ j).trans ?_
  rw [View.read_apply]
  unfold addBiasMax addBias iblk1
  rw [View.read_apply, View.read_apply, View.read_apply]
  have h0 : ((cfg1.win 0).blk t).view.emb j = ((cfg1.win 3).blk t).view.emb j := by
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb j = ((cfg1.win 3).blk t).view.emb j := by
    funext a; apply Fin.ext
    match a with
    | ⟨0, _⟩ => show win1_1.index t (0 : Fin 2) * 2000 + 1 * (j 0).val = win1_3.index t (0 : Fin 2) * 2000 + 1 * (j 0).val; omega
    | ⟨1, _⟩ => show win1_1.index t (1 : Fin 2) * 128 + 1 * (j 1).val = win1_3.index t (1 : Fin 2) * 128 + 1 * (j 1).val; omega
  have h2 : ((cfg1.win 2).blk t).view.emb (ix2 (0 : Fin 1) (⟨(j 1).val, (j 1).isLt⟩ : Fin 128))
      = ix2 (0 : Fin 1) (⟨(((cfg1.win 3).blk t).view.emb j 1).val, (((cfg1.win 3).blk t).view.emb j 1).isLt⟩ : Fin 128) := by
    funext a; apply Fin.ext
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega
  exact congrArg (max · 0) (congrArg₂ (· + ·) (congrArg₂ (· + ·) (congrArg (V c main_v26) h0) (congrArg (V c main_v12_1) h1))
    (congrArg (V c main_v27) h2))

/-- An index of the array is in point t's block iff each coordinate is in the block's range. -/
theorem mem_blk3 (t : Fin cfg1.N) (i : S10000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v28).slice (win1_3.rect t)).set ↔ _
  rw [View.set_slice_whole, Rect.mem_set_unit]
  exact Iff.rfl

/-- Row r lies in the block of point r / 2000: the five blocks cover the array. -/
theorem cover3 (i : S10000x128.Idx) : ∃ t : Fin cfg1.N, (cfg1.win 3).flush t = true ∧ i ∈ ((cfg1.win 3).blk t).view.set := by
  have hi0 : (i 0).val < 10000 := (i 0).isLt
  have hi1 : (i 1).val < 128 := (i 1).isLt
  have hN : cfg1.N = 5 := N_1
  obtain ⟨t, htv⟩ : ∃ t : Fin cfg1.N, t.val = (i 0).val / 2000 := ⟨⟨(i 0).val / 2000, by rw [hN]; omega⟩, rfl⟩
  obtain ⟨e00, e01, e10, e11, e20, e21, e30, e31⟩ := idx_facts t
  refine ⟨t, flush1_3 t, ?_⟩
  rw [mem_blk3]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- After the region the output array holds max(a + y + b, 0). -/
theorem final3 (c : Dev nD) : (dat1 V c).arrAt 3 cfg1.N = addBiasMax (V c main_v26) (V c main_v12_1) (V c main_v27) 0 :=
  (dat1 V c).arrAt_eq_of_cover 3 (addBiasMax (V c main_v26) (V c main_v12_1) (V c main_v27) 0) (fun t _ => flushed3_eq V c t) cover3

end Cert.KernelIdeal.Region1

end
-- ==== Proof.Region2.lean ====
/-
  The second matrix-product region, at any contents V the region is entered with.

  As the first one, with the hidden features h (10000 × 128) in place of x and the second layer's 64 × 128 weights:
  at block t of 2000 rows it writes the block's rows of h · W_lᵀ and of h · W_rᵀ, and the five blocks tile the rows, so
  after the region the two output arrays hold h · W_lᵀ and h · W_rᵀ.
-/
import proofs.«145033_j42176578846858_2_alg».proof.Proof.Gen.KernelIdeal.Frame
import proofs.«145033_j42176578846858_2_alg».proof.Proof.LibMatmulNT
import proofs.«145033_j42176578846858_2_alg».proof.Proof.Arrays
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The kernel casts the block to its own shape before the product: the cast is the identity. -/
theorem pay1_at (x0 : Vec Ideal S2000x128 .f32) (j : S2000x128.Idx) : k2_pay1 x0 j = x0 j := by
  show shapeCast S2000x128 x0 shapeCasts_S2000x128_S2000x128 j = x0 j
  rw [shapeCast_self]

/-- The product's f32 payload at an entry: the sum over the 128 hidden features. -/
theorem pay2_at (x0 : Vec Ideal S2000x128 .f32) (x2 : Vec Ideal S64x128 .f32) (y : S2000x64.Idx) :
    k2_pay2 x0 x2 y = ∑ d : Fin 128, x0 (ix2 (⟨(y 0).val, (y 0).isLt⟩ : Fin 2000) d) * x2 (ix2 (⟨(y 1).val, (y 1).isLt⟩ : Fin 64) d) := by
  obtain ⟨p, q, rfl⟩ : ∃ (p : Fin 2000) (q : Fin 64), y = ix2 p q := ⟨y 0, y 1, eq_ix2 y⟩
  refine (Cert.LibMatmulNT.matmul_nt_zero_apply dot_S2000x128_S64x128_S2000x64_1_1_0_0_n_n_wf none (k2_pay1 x0) x2 p q).trans ?_
  exact Finset.sum_congr rfl fun d _ => by rw [pay1_at]

/-- The product's bf16 payload at an entry: the same sum (a change of format is the identity). -/
theorem pay3_at (x0 : Vec Ideal S2000x128 .f32) (x1 : Vec Ideal S64x128 .f32) (y : S2000x64.Idx) :
    k2_pay3 x0 x1 y = ∑ d : Fin 128, x0 (ix2 (⟨(y 0).val, (y 0).isLt⟩ : Fin 2000) d) * x1 (ix2 (⟨(y 1).val, (y 1).isLt⟩ : Fin 64) d) := by
  show k2_pay2 x0 x1 y = _
  exact pay2_at x0 x1 y

/-- The printed index maps over the five grid points: h's block and both outputs' blocks are block t of the rows,
    the weights' block is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point t writes back through window 4 is block t of h · W_rᵀ. -/
theorem flushed4_eq (c : Dev nD) (t : Fin cfg2.N) :
    (dat2 V c).flushed 4 t = ((cfg2.win 4).blk t).view.read (Elt Ideal) (rowsT (V c main_v28) (V c main_arg6)) := by
  show (cfg2.win 4).cut (grid2.coords t) ((dat2 V c).after 4 t) = _
  rw [after2_4]
  unfold out2_4
  rw [View.canon_unit_zero hz]
  simp only [View.ld_unit_zero (S := S2000x128) hz, View.ld_unit_zero (S := S64x128) hz]
  obtain ⟨e00, e01, e10, e11, e20, e21, e30, e31, e40, e41⟩ := idx_facts t
  funext j
  refine (pay2_at _ _ j).trans ?_
  rw [View.read_apply]
  unfold rowsT
  refine Finset.sum_congr rfl fun d _ => ?_
  unfold iblk2
  rw [View.read_apply, View.read_apply]
  have h0 : ((cfg2.win 0).blk t).view.emb (ix2 (⟨(j 0).val, (j 0).isLt⟩ : Fin 2000) d)
      = ix2 (⟨(((cfg2.win 4).blk t).view.emb j 0).val, (((cfg2.win 4).blk t).view.emb j 0).isLt⟩ : Fin 10000) d := by
    funext a; apply Fin.ext
    match a with
    | ⟨0, _⟩ => show win2_0.index t (0 : Fin 2) * 2000 + 1 * (j 0).val = win2_4.index t (0 : Fin 2) * 2000 + 1 * (j 0).val; omega
    | ⟨1, _⟩ => show win2_0.index t (1 : Fin 2) * 128 + 1 * d.val = d.val; omega
  have h2 : ((cfg2.win 2).blk t).view.emb (ix2 (⟨(j 1).val, (j 1).isLt⟩ : Fin 64) d)
      = ix2 (⟨(((cfg2.win 4).blk t).view.emb j 1).val, (((cfg2.win 4).blk t).view.emb j 1).isLt⟩ : Fin 64) d := by
    funext a; apply Fin.ext
    match a with
    | ⟨0, _⟩ => show win2_2.index t (0 : Fin 2) * 64 + 1 * (j 1).val = win2_4.index t (1 : Fin 2) * 64 + 1 * (j 1).val; omega
    | ⟨1, _⟩ => show win2_2.index t (1 : Fin 2) * 128 + 1 * d.val = d.val; omega
  exact congrArg₂ (· * ·) (congrArg (V c main_v28) h0) (congrArg (V c main_arg6) h2)

/-- What point t writes back through window 3 is block t of h · W_lᵀ. -/
theorem flushed3_eq (c : Dev nD) (t : Fin cfg2.N) :
    (dat2 V c).flushed 3 t = ((cfg2.win 3).blk t).view.read (Elt Ideal) (rowsT (V c main_v28) (V c main_arg5)) := by
  show (cfg2.win 3).cut (grid2.coords t) ((dat2 V c).after 3 t) = _
  rw [after2_3]
  unfold out2_3
  rw [View.canon_unit_zero hz]
  simp only [View.ld_unit_zero (S := S2000x128) hz, View.ld_unit_zero (S := S64x128) hz]
  obtain ⟨e00, e01, e10, e11, e20, e21, e30, e31, e40, e41⟩ := idx_facts t
  funext j
  refine (pay3_at _ _ j).trans ?_
  rw [View.read_apply]
  unfold rowsT
  refine Finset.sum_congr rfl fun d _ => ?_
  unfold iblk2
  rw [View.read_apply, View.read_apply]
  have h0 : ((cfg2.win 0).blk t).view.emb (ix2 (⟨(j 0).val, (j 0).isLt⟩ : Fin 2000) d)
      = ix2 (⟨(((cfg2.win 3).blk t).view.emb j 0).val, (((cfg2.win 3).blk t).view.emb j 0).isLt⟩ : Fin 10000) d := by
    funext a; apply Fin.ext
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 128 + 1 * d.val = d.val; omega
  have h1 : ((cfg2.win 1).blk t).view.emb (ix2 (⟨(j 1).val, (j 1).isLt⟩ : Fin 64) d)
      = ix2 (⟨(((cfg2.win 3).blk t).view.emb j 1).val, (((cfg2.win 3).blk t).view.emb j 1).isLt⟩ : Fin 64) d := by
    funext a; apply Fin.ext
    match a with
    | ⟨0, _⟩ => show win2_1.index t (0 : Fin 2) * 64 + 1 * (j 1).val = win2_3.index t (1 : Fin 2) * 64 + 1 * (j 1).val; omega
    | ⟨1, _⟩ => show win2_1.index t (1 : Fin 2) * 128 + 1 * d.val = d.val; omega
  exact congrArg₂ (· * ·) (congrArg (V c main_v28) h0) (congrArg (V c main_arg5) h1)

/-- An index of the array is in point t's block of window 3 iff each coordinate is in the block's range. -/
theorem mem_blk3 (t : Fin cfg2.N) (i : S10000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v29_0).slice (win2_3.rect t)).set ↔ _
  rw [View.set_slice_whole, Rect.mem_set_unit]
  exact Iff.rfl

/-- The same for window 4. -/
theorem mem_blk4 (t : Fin cfg2.N) (i : S10000x64.Idx) :
    i ∈ ((cfg2.win 4).blk t).view.set ↔ ∀ a : Fin 2, win2_4.index t a * S2000x64.size a ≤ (i a).val ∧ (i a).val < win2_4.index t a * S2000x64.size a + S2000x64.size a := by
  show i ∈ ((View.whole main_v29_1).slice (win2_4.rect t)).set ↔ _
  rw [View.set_slice_whole, Rect.mem_set_unit]
  exact Iff.rfl

/-- Row r lies in the block of point r / 2000: the five blocks cover the array. -/
theorem cover3 (i : S10000x64.Idx) : ∃ t : Fin cfg2.N, (cfg2.win 3).flush t = true ∧ i ∈ ((cfg2.win 3).blk t).view.set := by
  have hi0 : (i 0).val < 10000 := (i 0).isLt
  have hi1 : (i 1).val < 64 := (i 1).isLt
  have hN : cfg2.N = 5 := N_2
  obtain ⟨t, htv⟩ : ∃ t : Fin cfg2.N, t.val = (i 0).val / 2000 := ⟨⟨(i 0).val / 2000, by rw [hN]; omega⟩, rfl⟩
  obtain ⟨e00, e01, e10, e11, e20, e21, e30, e31, e40, e41⟩ := idx_facts t
  refine ⟨t, flush2_3 t, ?_⟩
  rw [mem_blk3]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 64 ≤ (i 1).val ∧ (i 1).val < win2_3.index t (1 : Fin 2) * 64 + 64; omega

theorem cover4 (i : S10000x64.Idx) : ∃ t : Fin cfg2.N, (cfg2.win 4).flush t = true ∧ i ∈ ((cfg2.win 4).blk t).view.set := by
  have hi0 : (i 0).val < 10000 := (i 0).isLt
  have hi1 : (i 1).val < 64 := (i 1).isLt
  have hN : cfg2.N = 5 := N_2
  obtain ⟨t, htv⟩ : ∃ t : Fin cfg2.N, t.val = (i 0).val / 2000 := ⟨⟨(i 0).val / 2000, by rw [hN]; omega⟩, rfl⟩
  obtain ⟨e00, e01, e10, e11, e20, e21, e30, e31, e40, e41⟩ := idx_facts t
  refine ⟨t, flush2_4 t, ?_⟩
  rw [mem_blk4]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 64 ≤ (i 1).val ∧ (i 1).val < win2_4.index t (1 : Fin 2) * 64 + 64; omega

/-- After the region the bf16 output array holds h · W_lᵀ. -/
theorem final3 (c : Dev nD) : (dat2 V c).arrAt 3 cfg2.N = rowsT (V c main_v28) (V c main_arg5) :=
  (dat2 V c).arrAt_eq_of_cover 3 (rowsT (V c main_v28) (V c main_arg5)) (fun t _ => flushed3_eq V c t) cover3

/-- After the region the f32 output array holds h · W_rᵀ. -/
theorem final4 (c : Dev nD) : (dat2 V c).arrAt 4 cfg2.N = rowsT (V c main_v28) (V c main_arg6) :=
  (dat2 V c).arrAt_eq_of_cover 4 (rowsT (V c main_v28) (V c main_arg6)) (fun t _ => flushed4_eq V c t) cover4

end Cert.KernelIdeal.Region2

end
-- ==== Proof.Region3.lean ====
/-
  The second combine region, at any contents V the region is entered with.

  At block t of 2000 node rows the region reads the block's rows of the aggregated array a and of the array y (64
  columns), and the bias row b whole, and writes a + y + b entry by entry. Each written block is that block of the whole
  array a + y + b, and the five blocks tile the 10000 rows.
-/
import proofs.«145033_j42176578846858_2_alg».proof.Proof.Gen.KernelIdeal.Frame
import proofs.«145033_j42176578846858_2_alg».proof.Proof.Arrays
import Idealize.ShloMosaic.Lib.Pipeline.Value
import Idealize.ShloMosaic.Lib.ValueIdx
import Idealize.ShloMosaic.PureOps.Ideal.Laws

set_option maxRecDepth 16384

noncomputable section

namespace Cert.KernelIdeal.Region3

open Cert.KernelIdeal Cert.KernelIdeal.Gen Cert.Sage
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The body's payload at an entry: the two blocks' entries and the bias entry of that column, added (the casts to the
    same shape are the identity; the bias row is repeated on every row). -/
theorem pay1_at (v0 v2 : Vec Ideal S2000x64 .f32) (v5 : Vec Ideal S1x64 .f32) (y : S2000x64.Idx) :
    k3_pay1 v0 v2 v5 y = v0 y + v2 y + v5 (ix2 (0 : Fin 1) (⟨(y 1).val, (y 1).isLt⟩ : Fin 64)) := by
  have e4 : broadcastTo S2000x64 v5 broadcasts_S1x64_S2000x64 y = v5 (ix2 (0 : Fin 1) (⟨(y 1).val, (y 1).isLt⟩ : Fin 64)) :=
    broadcastTo_apply v5 broadcasts_S1x64_S2000x64 y _ (fun a => by
      match a with
      | ⟨0, _⟩ => show (0 : Nat) = if (1 : Nat) = 1 then 0 else _; rw [if_pos rfl]
      | ⟨1, _⟩ => show (y 1).val = if (64 : Nat) = 1 then 0 else (y 1).val; rw [if_neg (by decide)])
  unfold k3_pay1
  rw [shapeCast_self, shapeCast_self, shapeCast_self]
  show v0 y + v2 y + broadcastTo S2000x64 v5 broadcasts_S1x64_S2000x64 y = _
  rw [e4]

/-- The printed index maps over the five grid points: both inputs' blocks and the output's block are block t of the
    rows, the bias row's block is the whole row. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of a + y + b. -/
theorem flushed3_eq (c : Dev nD) (t : Fin cfg3.N) :
    (dat3 V c).flushed 3 t = ((cfg3.win 3).blk t).view.read (Elt Ideal) (addBias (V c main_v43) (V c main_v29_1) (V c main_v44)) := by
  show (cfg3.win 3).cut (grid3.coords t) ((dat3 V c).after 3 t) = _
  rw [after3_3]
  unfold out3_3
  rw [View.canon_unit_zero hz]
  simp only [View.ld_unit_zero (S := S2000x64) hz, View.ld_unit_zero (S := S1x64) hz]
  obtain ⟨e00, e01, e10, e11, e20, e21, e30, e31⟩ := idx_facts t
  funext j
  refine (pay1_at _ _ _ j).trans ?_
  rw [View.read_apply]
  unfold addBias iblk3
  rw [View.read_apply, View.read_apply, View.read_apply]
  have h0 : ((cfg3.win 0).blk t).view.emb j = ((cfg3.win 3).blk t).view.emb j := by
    funext a; apply Fin.ext
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb j = ((cfg3.win 3).blk t).view.emb j := by
    funext a; apply Fin.ext
    match a with
    | ⟨0, _⟩ => show win3_1.index t (0 : Fin 2) * 2000 + 1 * (j 0).val = win3_3.index t (0 : Fin 2) * 2000 + 1 * (j 0).val; omega
    | ⟨1, _⟩ => show win3_1.index t (1 : Fin 2) * 64 + 1 * (j 1).val = win3_3.index t (1 : Fin 2) * 64 + 1 * (j 1).val; omega
  have h2 : ((cfg3.win 2).blk t).view.emb (ix2 (0 : Fin 1) (⟨(j 1).val, (j 1).isLt⟩ : Fin 64))
      = ix2 (0 : Fin 1) (⟨(((cfg3.win 3).blk t).view.emb j 1).val, (((cfg3.win 3).blk t).view.emb j 1).isLt⟩ : Fin 64) := by
    funext a; apply Fin.ext
    match a with
    | ⟨0, _⟩ => show win3_2.index t (0 : Fin 2) * 1 + 1 * 0 = 0; omega
    | ⟨1, _⟩ => show win3_2.index t (1 : Fin 2) * 64 + 1 * (j 1).val = win3_3.index t (1 : Fin 2) * 64 + 1 * (j 1).val; omega
  exact congrArg₂ (· + ·) (congrArg₂ (· + ·) (congrArg (V c main_v43) h0) (congrArg (V c main_v29_1) h1))
    (congrArg (V c main_v44) h2)

/-- An index of the array is in point t's block iff each coordinate is in the block's range. -/
theorem mem_blk3 (t : Fin cfg3.N) (i : S10000x64.Idx) :
    i ∈ ((cfg3.win 3).blk t).view.set ↔ ∀ a : Fin 2, win3_3.index t a * S2000x64.size a ≤ (i a).val ∧ (i a).val < win3_3.index t a * S2000x64.size a + S2000x64.size a := by
  show i ∈ ((View.whole main_v45).slice (win3_3.rect t)).set ↔ _
  rw [View.set_slice_whole, Rect.mem_set_unit]
  exact Iff.rfl

/-- Row r lies in the block of point r / 2000: the five blocks cover the array. -/
theorem cover3 (i : S10000x64.Idx) : ∃ t : Fin cfg3.N, (cfg3.win 3).flush t = true ∧ i ∈ ((cfg3.win 3).blk t).view.set := by
  have hi0 : (i 0).val < 10000 := (i 0).isLt
  have hi1 : (i 1).val < 64 := (i 1).isLt
  have hN : cfg3.N = 5 := N_3
  obtain ⟨t, htv⟩ : ∃ t : Fin cfg3.N, t.val = (i 0).val / 2000 := ⟨⟨(i 0).val / 2000, by rw [hN]; omega⟩, rfl⟩
  obtain ⟨e00, e01, e10, e11, e20, e21, e30, e31⟩ := idx_facts t
  refine ⟨t, flush3_3 t, ?_⟩
  rw [mem_blk3]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 64 ≤ (i 1).val ∧ (i 1).val < win3_3.index t (1 : Fin 2) * 64 + 64; omega

/-- After the region the output array holds a + y + b. -/
theorem final3 (c : Dev nD) : (dat3 V c).arrAt 3 cfg3.N = addBias (V c main_v43) (V c main_v29_1) (V c main_v44) :=
  (dat3 V c).arrAt_eq_of_cover 3 (addBias (V c main_v43) (V c main_v29_1) (V c main_v44)) (fun t _ => flushed3_eq V c t) cover3

end Cert.KernelIdeal.Region3

end
-- ==== Proof.KernelStages.lean ====
/-
  The values the idealized kernel's host operations compute, as functions of what they read.

  From the edge array (2 × E words): the source words and the destination words; the destination column; the source
  column with negative words wrapped by N; the in-degree of every node by adding a one per landing edge, its maximum
  with one, and the reciprocal of that. From a node array y (bf16) of C columns: gather the source rows, widen to f32,
  add each gathered row into its destination row, and multiply row n by the reciprocal at n (the mean over the edges
  landing on n). The bias vectors are laid out as one-row arrays.
-/
import proofs.«145033_j42176578846858_2_alg».proof.KernelIdeal

noncomputable section

namespace Cert.KernelIdeal.Stage

open Cert.KernelIdeal Cert.KernelIdeal.Facts₀ Idealize.ShloMosaic

variable {F : FTy → Type} [FloatOps F] [Facts]

/-- The source words. -/
def srcWords (a1 : (⟨S2x160000, .i32⟩ : BufTy).Contents (Elt F)) : (⟨S160000, .i32⟩ : BufTy).Contents (Elt F) :=
  shapeCast _ (extractStridedSlice S1x160000 ![0, 0] a1 slices_S2x160000_S1x160000_0_0) shapeCasts_S1x160000_S160000

/-- The destination words. -/
def dstWords (a1 : (⟨S2x160000, .i32⟩ : BufTy).Contents (Elt F)) : (⟨S160000, .i32⟩ : BufTy).Contents (Elt F) :=
  shapeCast _ (extractStridedSlice S1x160000 ![1, 0] a1 slices_S2x160000_S1x160000_1_0) shapeCasts_S1x160000_S160000

/-- The destination column. -/
def dstCol (a1 : (⟨S2x160000, .i32⟩ : BufTy).Contents (Elt F)) : (⟨S160000x1, .i32⟩ : BufTy).Contents (Elt F) :=
  broadcastInDim S160000x1 ![0] bcast_S160000_S160000x1_0 (dstWords (F := F) a1)

/-- The source column: a negative word is wrapped by the number of nodes. -/
def srcCol (a1 : (⟨S2x160000, .i32⟩ : BufTy).Contents (Elt F)) : (⟨S160000x1, .i32⟩ : BufTy).Contents (Elt F) :=
  broadcastInDim S160000x1 ![0] bcast_S160000_S160000x1_0
    (select (cmpi .slt (srcWords (F := F) a1) (broadcastInDim S160000 ![] bcast_S_S160000 (constantI S_ 32 0#32)))
      (addi (srcWords (F := F) a1) (broadcastInDim S160000 ![] bcast_S_S160000 (constantI S_ 32 10000#32)))
      (srcWords (F := F) a1))

/-- max(in-degree, 1). -/
def degMax (a1 : (⟨S2x160000, .i32⟩ : BufTy).Contents (Elt F)) : (⟨S10000, .f32⟩ : BufTy).Contents (Elt F) :=
  maximumf
    (Host.scatterAdd scatter_S10000_S160000x1_S160000_n_0_0_1
      (broadcastInDim S10000 ![] bcast_S_S10000 (constant (F := F) S_ .f32 0x00000000#32))
      (dstCol (F := F) a1)
      (broadcastInDim S160000 ![] bcast_S_S160000 (constant (F := F) S_ .f32 0x3F800000#32)))
    (broadcastInDim S10000 ![] bcast_S_S10000 (constant (F := F) S_ .f32 0x3F800000#32))

/-- 1 / max(in-degree, 1). -/
def invDeg (a1 : (⟨S2x160000, .i32⟩ : BufTy).Contents (Elt F)) : (⟨S10000, .f32⟩ : BufTy).Contents (Elt F) :=
  Host.divf (broadcastInDim S10000 ![] bcast_S_S10000 (constant (F := F) S_ .f32 0x3F800000#32)) (degMax (F := F) a1)

/-- The mean of the gathered 128-wide rows. -/
def mean128 (y : (⟨S10000x128, .bf16⟩ : BufTy).Contents (Elt F)) (src : (⟨S160000, .i32⟩ : BufTy).Contents (Elt F))
    (dst : (⟨S160000, .i32⟩ : BufTy).Contents (Elt F)) (inv : (⟨S10000, .f32⟩ : BufTy).Contents (Elt F)) :
    (⟨S10000x128, .f32⟩ : BufTy).Contents (Elt F) :=
  mulf
    (Host.scatterAdd scatter_S10000x128_S160000x1_S160000x128_1_0_0_1
      (broadcastInDim S10000x128 ![] bcast_S_S10000x128 (constant (F := F) S_ .f32 0x00000000#32))
      (broadcastInDim S160000x1 ![0] bcast_S160000_S160000x1_0 dst)
      (extf .f32 (Host.gather gather_S10000x128_S160000x1_S160000x128_1_0_n_n_0_1_1128 y
        (broadcastInDim S160000x1 ![0] bcast_S160000_S160000x1_0
          (select (cmpi .slt src (broadcastInDim S160000 ![] bcast_S_S160000 (constantI S_ 32 0#32)))
            (addi src (broadcastInDim S160000 ![] bcast_S_S160000 (constantI S_ 32 10000#32))) src))) bitsLt_bf16_f32))
    (broadcastInDim S10000x128 ![0, 1] bcast_S10000x1_S10000x128_0_1 (broadcastInDim S10000x1 ![0] bcast_S10000_S10000x1_0 inv))

/-- The mean of the gathered 64-wide rows. -/
def mean64 (y : (⟨S10000x64, .bf16⟩ : BufTy).Contents (Elt F)) (src : (⟨S160000, .i32⟩ : BufTy).Contents (Elt F))
    (dst : (⟨S160000, .i32⟩ : BufTy).Contents (Elt F)) (inv : (⟨S10000, .f32⟩ : BufTy).Contents (Elt F)) :
    (⟨S10000x64, .f32⟩ : BufTy).Contents (Elt F) :=
  mulf
    (Host.scatterAdd scatter_S10000x64_S160000x1_S160000x64_1_0_0_1
      (broadcastInDim S10000x64 ![] bcast_S_S10000x64 (constant (F := F) S_ .f32 0x00000000#32))
      (broadcastInDim S160000x1 ![0] bcast_S160000_S160000x1_0 dst)
      (extf .f32 (Host.gather gather_S10000x64_S160000x1_S160000x64_1_0_n_n_0_1_164 y
        (broadcastInDim S160000x1 ![0] bcast_S160000_S160000x1_0
          (select (cmpi .slt src (broadcastInDim S160000 ![] bcast_S_S160000 (constantI S_ 32 0#32)))
            (addi src (broadcastInDim S160000 ![] bcast_S_S160000 (constantI S_ 32 10000#32))) src))) bitsLt_bf16_f32))
    (broadcastInDim S10000x64 ![0, 1] bcast_S10000x1_S10000x64_0_1 (broadcastInDim S10000x1 ![0] bcast_S10000_S10000x1_0 inv))

/-- The first bias as a one-row array. -/
def biasRow128 (a4 : (⟨S128, .f32⟩ : BufTy).Contents (Elt F)) : (⟨S1x128, .f32⟩ : BufTy).Contents (Elt F) :=
  shapeCast _ a4 shapeCasts_S128_S1x128

/-- The second bias as a one-row array. -/
def biasRow64 (a7 : (⟨S64, .f32⟩ : BufTy).Contents (Elt F)) : (⟨S1x64, .f32⟩ : BufTy).Contents (Elt F) :=
  shapeCast _ a7 shapeCasts_S64_S1x64

end Cert.KernelIdeal.Stage

end
-- ==== Proof.KernelFold.lean ====
/-
  The idealized kernel's buffers at each boundary between its segments, in closed form.

  The run is: host operations (the edge words, the in-degrees and their reciprocals); the first product region
  (y_l = x · W_lᵀ, y_r = x · W_rᵀ); host operations (the mean of the gathered rows of y_l, the bias as a row); the
  first combine region (h = max(mean + y_r + b, 0)); the second product region on h; host operations (the mean of the
  gathered rows of h · W_lᵀ); the second combine region. Walking the boundaries in order, every buffer that is still
  read later is a named function of the launch memory; the last one is the result.
-/
import proofs.«145033_j42176578846858_2_alg».proof.Proof.Gen.KernelIdeal.Frame
import proofs.«145033_j42176578846858_2_alg».proof.Proof.Region0
import proofs.«145033_j42176578846858_2_alg».proof.Proof.Region1
import proofs.«145033_j42176578846858_2_alg».proof.Proof.Region2
import proofs.«145033_j42176578846858_2_alg».proof.Proof.Region3
import proofs.«145033_j42176578846858_2_alg».proof.Proof.KernelStages
import Idealize.ShloMosaic.Lib.StableHlo.Run

set_option maxRecDepth 16384

noncomputable section

namespace Cert.KernelIdeal.Fold

open Cert.KernelIdeal Cert.KernelIdeal.Gen Cert.KernelIdeal.Stage Cert.Sage
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## The named values -/

/-- x · W1_lᵀ. -/
def yl1 : S10000x128.Idx → EReal := rowsT (m ((c : Thread nD τ).loc main_arg0)) (m ((c : Thread nD τ).loc main_arg2))
/-- x · W1_rᵀ. -/
def yr1 : S10000x128.Idx → EReal := rowsT (m ((c : Thread nD τ).loc main_arg0)) (m ((c : Thread nD τ).loc main_arg3))
/-- The mean over the landing edges of the rows of x · W1_lᵀ. -/
def agg1 : S10000x128.Idx → EReal := mean128 (F := Ideal) (yl1 m c) (srcWords (F := Ideal) (m ((c : Thread nD τ).loc main_arg1))) (dstWords (F := Ideal) (m ((c : Thread nD τ).loc main_arg1))) (invDeg (F := Ideal) (m ((c : Thread nD τ).loc main_arg1)))
/-- The first bias as a row. -/
def bias1 : S1x128.Idx → EReal := biasRow128 (F := Ideal) (m ((c : Thread nD τ).loc main_arg4))
/-- The hidden features: max(mean + x · W1_rᵀ + b1, 0). -/
def hidden : S10000x128.Idx → EReal := addBiasMax (agg1 m c) (yr1 m c) (bias1 m c) 0
/-- h · W2_lᵀ. -/
def yl2 : S10000x64.Idx → EReal := rowsT (hidden m c) (m ((c : Thread nD τ).loc main_arg5))
/-- h · W2_rᵀ. -/
def yr2 : S10000x64.Idx → EReal := rowsT (hidden m c) (m ((c : Thread nD τ).loc main_arg6))
/-- The mean over the landing edges of the rows of h · W2_lᵀ. -/
def agg2 : S10000x64.Idx → EReal := mean64 (F := Ideal) (yl2 m c) (srcWords (F := Ideal) (m ((c : Thread nD τ).loc main_arg1))) (dstWords (F := Ideal) (m ((c : Thread nD τ).loc main_arg1))) (invDeg (F := Ideal) (m ((c : Thread nD τ).loc main_arg1)))
/-- The second bias as a row. -/
def bias2 : S1x64.Idx → EReal := biasRow64 (F := Ideal) (m ((c : Thread nD τ).loc main_arg7))
/-- The result: mean + h · W2_rᵀ + b2. -/
def result : S10000x64.Idx → EReal := addBias (agg2 m c) (yr2 m c) (bias2 m c)

/-! ## After the first host stretch -/

theorem W1_main_arg0 : W1 m ρ c (Proc.devRef .tc main_arg0) = m ((c : Thread nD τ).loc main_arg0) :=
  (show StableHlo.after hostOps0 (W0 m ρ c) (Proc.devRef .tc main_arg0) = W0 m ρ c (Proc.devRef .tc main_arg0) from by after_results)
theorem W1_main_arg2 : W1 m ρ c (Proc.devRef .tc main_arg2) = m ((c : Thread nD τ).loc main_arg2) :=
  (show StableHlo.after hostOps0 (W0 m ρ c) (Proc.devRef .tc main_arg2) = W0 m ρ c (Proc.devRef .tc main_arg2) from by after_results)
theorem W1_main_arg3 : W1 m ρ c (Proc.devRef .tc main_arg3) = m ((c : Thread nD τ).loc main_arg3) :=
  (show StableHlo.after hostOps0 (W0 m ρ c) (Proc.devRef .tc main_arg3) = W0 m ρ c (Proc.devRef .tc main_arg3) from by after_results)
theorem W1_main_arg4 : W1 m ρ c (Proc.devRef .tc main_arg4) = m ((c : Thread nD τ).loc main_arg4) :=
  (show StableHlo.after hostOps0 (W0 m ρ c) (Proc.devRef .tc main_arg4) = W0 m ρ c (Proc.devRef .tc main_arg4) from by after_results)
theorem W1_main_arg5 : W1 m ρ c (Proc.devRef .tc main_arg5) = m ((c : Thread nD τ).loc main_arg5) :=
  (show StableHlo.after hostOps0 (W0 m ρ c) (Proc.devRef .tc main_arg5) = W0 m ρ c (Proc.devRef .tc main_arg5) from by after_results)
theorem W1_main_arg6 : W1 m ρ c (Proc.devRef .tc main_arg6) = m ((c : Thread nD τ).loc main_arg6) :=
  (show StableHlo.after hostOps0 (W0 m ρ c) (Proc.devRef .tc main_arg6) = W0 m ρ c (Proc.devRef .tc main_arg6) from by after_results)
theorem W1_main_arg7 : W1 m ρ c (Proc.devRef .tc main_arg7) = m ((c : Thread nD τ).loc main_arg7) :=
  (show StableHlo.after hostOps0 (W0 m ρ c) (Proc.devRef .tc main_arg7) = W0 m ρ c (Proc.devRef .tc main_arg7) from by after_results)
theorem W1_main_v1 : W1 m ρ c (Proc.devRef .tc main_v1) = srcWords (F := Ideal) (m ((c : Thread nD τ).loc main_arg1)) := by
  unfold srcWords
  show StableHlo.after hostOps0 (W0 m ρ c) (Proc.devRef .tc main_v1) = _
  after_results
  rfl
theorem W1_main_v3 : W1 m ρ c (Proc.devRef .tc main_v3) = dstWords (F := Ideal) (m ((c : Thread nD τ).loc main_arg1)) := by
  unfold dstWords
  show StableHlo.after hostOps0 (W0 m ρ c) (Proc.devRef .tc main_v3) = _
  after_results
  rfl
theorem W1_main_v11 : W1 m ρ c (Proc.devRef .tc main_v11) = invDeg (F := Ideal) (m ((c : Thread nD τ).loc main_arg1)) := by
  unfold invDeg degMax dstCol dstWords
  show StableHlo.after hostOps0 (W0 m ρ c) (Proc.devRef .tc main_v11) = _
  after_results
  rfl

/-! ## After the first product region -/

theorem W2_main_v12_0 : W2 m ρ c (Proc.devRef .tc main_v12_0) = yl1 m c :=
  (W2_arr m ρ c 3).trans ((Region0.final3 (V1 m ρ) c).trans (congrArg₂ rowsT (W1_main_arg0 m ρ c) (W1_main_arg2 m ρ c)))
theorem W2_main_v12_1 : W2 m ρ c (Proc.devRef .tc main_v12_1) = yr1 m c :=
  (W2_arr m ρ c 4).trans ((Region0.final4 (V1 m ρ) c).trans (congrArg₂ rowsT (W1_main_arg0 m ρ c) (W1_main_arg3 m ρ c)))
theorem W2_main_v1 : W2 m ρ c (Proc.devRef .tc main_v1) = srcWords (F := Ideal) (m ((c : Thread nD τ).loc main_arg1)) :=
  (W2_of_ne m ρ c main_v1 (by decide)).trans (W1_main_v1 m ρ c)
theorem W2_main_v3 : W2 m ρ c (Proc.devRef .tc main_v3) = dstWords (F := Ideal) (m ((c : Thread nD τ).loc main_arg1)) :=
  (W2_of_ne m ρ c main_v3 (by decide)).trans (W1_main_v3 m ρ c)
theorem W2_main_v11 : W2 m ρ c (Proc.devRef .tc main_v11) = invDeg (F := Ideal) (m ((c : Thread nD τ).loc main_arg1)) :=
  (W2_of_ne m ρ c main_v11 (by decide)).trans (W1_main_v11 m ρ c)
theorem W2_main_arg4 : W2 m ρ c (Proc.devRef .tc main_arg4) = m ((c : Thread nD τ).loc main_arg4) :=
  (W2_of_ne m ρ c main_arg4 (by decide)).trans (W1_main_arg4 m ρ c)
theorem W2_main_arg5 : W2 m ρ c (Proc.devRef .tc main_arg5) = m ((c : Thread nD τ).loc main_arg5) :=
  (W2_of_ne m ρ c main_arg5 (by decide)).trans (W1_main_arg5 m ρ c)
theorem W2_main_arg6 : W2 m ρ c (Proc.devRef .tc main_arg6) = m ((c : Thread nD τ).loc main_arg6) :=
  (W2_of_ne m ρ c main_arg6 (by decide)).trans (W1_main_arg6 m ρ c)
theorem W2_main_arg7 : W2 m ρ c (Proc.devRef .tc main_arg7) = m ((c : Thread nD τ).loc main_arg7) :=
  (W2_of_ne m ρ c main_arg7 (by decide)).trans (W1_main_arg7 m ρ c)

/-! ## After the second host stretch -/

set_option maxHeartbeats 1000000 in
theorem W3_main_v26 : W3 m ρ c (Proc.devRef .tc main_v26) = agg1 m c := by
  have h : W3 m ρ c (Proc.devRef .tc main_v26) = mean128 (F := Ideal) (W2 m ρ c (Proc.devRef .tc main_v12_0)) (W2 m ρ c (Proc.devRef .tc main_v1))
      (W2 m ρ c (Proc.devRef .tc main_v3)) (W2 m ρ c (Proc.devRef .tc main_v11)) := by
    unfold mean128
    show StableHlo.after hostOps1 (W2 m ρ c) (Proc.devRef .tc main_v26) = _
    after_results_simp <;> rfl
  rw [h, W2_main_v12_0, W2_main_v1, W2_main_v3, W2_main_v11]
  rfl
theorem W3_main_v27 : W3 m ρ c (Proc.devRef .tc main_v27) = bias1 m c := by
  have h : W3 m ρ c (Proc.devRef .tc main_v27) = biasRow128 (F := Ideal) (W2 m ρ c (Proc.devRef .tc main_arg4)) := by
    unfold biasRow128
    show StableHlo.after hostOps1 (W2 m ρ c) (Proc.devRef .tc main_v27) = _
    after_results
    rfl
  rw [h, W2_main_arg4]
  rfl
theorem W3_main_v12_1 : W3 m ρ c (Proc.devRef .tc main_v12_1) = yr1 m c :=
  (show StableHlo.after hostOps1 (W2 m ρ c) (Proc.devRef .tc main_v12_1) = W2 m ρ c (Proc.devRef .tc main_v12_1) from by after_results).trans (W2_main_v12_1 m ρ c)
theorem W3_main_v1 : W3 m ρ c (Proc.devRef .tc main_v1) = srcWords (F := Ideal) (m ((c : Thread nD τ).loc main_arg1)) :=
  (show StableHlo.after hostOps1 (W2 m ρ c) (Proc.devRef .tc main_v1) = W2 m ρ c (Proc.devRef .tc main_v1) from by after_results).trans (W2_main_v1 m ρ c)
theorem W3_main_v3 : W3 m ρ c (Proc.devRef .tc main_v3) = dstWords (F := Ideal) (m ((c : Thread nD τ).loc main_arg1)) :=
  (show StableHlo.after hostOps1 (W2 m ρ c) (Proc.devRef .tc main_v3) = W2 m ρ c (Proc.devRef .tc main_v3) from by after_results).trans (W2_main_v3 m ρ c)
theorem W3_main_v11 : W3 m ρ c (Proc.devRef .tc main_v11) = invDeg (F := Ideal) (m ((c : Thread nD τ).loc main_arg1)) :=
  (show StableHlo.after hostOps1 (W2 m ρ c) (Proc.devRef .tc main_v11) = W2 m ρ c (Proc.devRef .tc main_v11) from by after_results).trans (W2_main_v11 m ρ c)
theorem W3_main_arg5 : W3 m ρ c (Proc.devRef .tc main_arg5) = m ((c : Thread nD τ).loc main_arg5) :=
  (show StableHlo.after hostOps1 (W2 m ρ c) (Proc.devRef .tc main_arg5) = W2 m ρ c (Proc.devRef .tc main_arg5) from by after_results).trans (W2_main_arg5 m ρ c)
theorem W3_main_arg6 : W3 m ρ c (Proc.devRef .tc main_arg6) = m ((c : Thread nD τ).loc main_arg6) :=
  (show StableHlo.after hostOps1 (W2 m ρ c) (Proc.devRef .tc main_arg6) = W2 m ρ c (Proc.devRef .tc main_arg6) from by after_results).trans (W2_main_arg6 m ρ c)
theorem W3_main_arg7 : W3 m ρ c (Proc.devRef .tc main_arg7) = m ((c : Thread nD τ).loc main_arg7) :=
  (show StableHlo.after hostOps1 (W2 m ρ c) (Proc.devRef .tc main_arg7) = W2 m ρ c (Proc.devRef .tc main_arg7) from by after_results).trans (W2_main_arg7 m ρ c)

/-! ## After the first combine region -/

theorem W4_main_v28 : W4 m ρ c (Proc.devRef .tc main_v28) = hidden m c := by
  refine (W4_arr m ρ c 3).trans ((Region1.final3 (V3 m ρ) c).trans ?_)
  show addBiasMax (W3 m ρ c (Proc.devRef .tc main_v26)) (W3 m ρ c (Proc.devRef .tc main_v12_1)) (W3 m ρ c (Proc.devRef .tc main_v27)) 0 = _
  rw [W3_main_v26, W3_main_v12_1, W3_main_v27]
  rfl
theorem W4_main_v1 : W4 m ρ c (Proc.devRef .tc main_v1) = srcWords (F := Ideal) (m ((c : Thread nD τ).loc main_arg1)) :=
  (W4_of_ne m ρ c main_v1 (by decide)).trans (W3_main_v1 m ρ c)
theorem W4_main_v3 : W4 m ρ c (Proc.devRef .tc main_v3) = dstWords (F := Ideal) (m ((c : Thread nD τ).loc main_arg1)) :=
  (W4_of_ne m ρ c main_v3 (by decide)).trans (W3_main_v3 m ρ c)
theorem W4_main_v11 : W4 m ρ c (Proc.devRef .tc main_v11) = invDeg (F := Ideal) (m ((c : Thread nD τ).loc main_arg1)) :=
  (W4_of_ne m ρ c main_v11 (by decide)).trans (W3_main_v11 m ρ c)
theorem W4_main_arg5 : W4 m ρ c (Proc.devRef .tc main_arg5) = m ((c : Thread nD τ).loc main_arg5) :=
  (W4_of_ne m ρ c main_arg5 (by decide)).trans (W3_main_arg5 m ρ c)
theorem W4_main_arg6 : W4 m ρ c (Proc.devRef .tc main_arg6) = m ((c : Thread nD τ).loc main_arg6) :=
  (W4_of_ne m ρ c main_arg6 (by decide)).trans (W3_main_arg6 m ρ c)
theorem W4_main_arg7 : W4 m ρ c (Proc.devRef .tc main_arg7) = m ((c : Thread nD τ).loc main_arg7) :=
  (W4_of_ne m ρ c main_arg7 (by decide)).trans (W3_main_arg7 m ρ c)

/-! ## After the second product region -/

theorem W5_main_v29_0 : W5 m ρ c (Proc.devRef .tc main_v29_0) = yl2 m c :=
  (W5_arr m ρ c 3).trans ((Region2.final3 (V4 m ρ) c).trans (congrArg₂ rowsT (W4_main_v28 m ρ c) (W4_main_arg5 m ρ c)))
theorem W5_main_v29_1 : W5 m ρ c (Proc.devRef .tc main_v29_1) = yr2 m c :=
  (W5_arr m ρ c 4).trans ((Region2.final4 (V4 m ρ) c).trans (congrArg₂ rowsT (W4_main_v28 m ρ c) (W4_main_arg6 m ρ c)))
theorem W5_main_v1 : W5 m ρ c (Proc.devRef .tc main_v1) = srcWords (F := Ideal) (m ((c : Thread nD τ).loc main_arg1)) :=
  (W5_of_ne m ρ c main_v1 (by decide)).trans (W4_main_v1 m ρ c)
theorem W5_main_v3 : W5 m ρ c (Proc.devRef .tc main_v3) = dstWords (F := Ideal) (m ((c : Thread nD τ).loc main_arg1)) :=
  (W5_of_ne m ρ c main_v3 (by decide)).trans (W4_main_v3 m ρ c)
theorem W5_main_v11 : W5 m ρ c (Proc.devRef .tc main_v11) = invDeg (F := Ideal) (m ((c : Thread nD τ).loc main_arg1)) :=
  (W5_of_ne m ρ c main_v11 (by decide)).trans (W4_main_v11 m ρ c)
theorem W5_main_arg7 : W5 m ρ c (Proc.devRef .tc main_arg7) = m ((c : Thread nD τ).loc main_arg7) :=
  (W5_of_ne m ρ c main_arg7 (by decide)).trans (W4_main_arg7 m ρ c)

/-! ## After the third host stretch -/

set_option maxHeartbeats 1000000 in
theorem W6_main_v43 : W6 m ρ c (Proc.devRef .tc main_v43) = agg2 m c := by
  have h : W6 m ρ c (Proc.devRef .tc main_v43) = mean64 (F := Ideal) (W5 m ρ c (Proc.devRef .tc main_v29_0)) (W5 m ρ c (Proc.devRef .tc main_v1))
      (W5 m ρ c (Proc.devRef .tc main_v3)) (W5 m ρ c (Proc.devRef .tc main_v11)) := by
    unfold mean64
    show StableHlo.after hostOps3 (W5 m ρ c) (Proc.devRef .tc main_v43) = _
    after_results_simp <;> rfl
  rw [h, W5_main_v29_0, W5_main_v1, W5_main_v3, W5_main_v11]
  rfl
theorem W6_main_v44 : W6 m ρ c (Proc.devRef .tc main_v44) = bias2 m c := by
  have h : W6 m ρ c (Proc.devRef .tc main_v44) = biasRow64 (F := Ideal) (W5 m ρ c (Proc.devRef .tc main_arg7)) := by
    unfold biasRow64
    show StableHlo.after hostOps3 (W5 m ρ c) (Proc.devRef .tc main_v44) = _
    after_results
    rfl
  rw [h, W5_main_arg7]
  rfl
theorem W6_main_v29_1 : W6 m ρ c (Proc.devRef .tc main_v29_1) = yr2 m c :=
  (show StableHlo.after hostOps3 (W5 m ρ c) (Proc.devRef .tc main_v29_1) = W5 m ρ c (Proc.devRef .tc main_v29_1) from by after_results).trans (W5_main_v29_1 m ρ c)

/-! ## After the second combine region: the result -/

theorem W7_main_v45 : W7 m ρ c (Proc.devRef .tc main_v45) = result m c := by
  refine (W7_arr m ρ c 3).trans ((Region3.final3 (V6 m ρ) c).trans ?_)
  show addBias (W6 m ρ c (Proc.devRef .tc main_v43)) (W6 m ρ c (Proc.devRef .tc main_v29_1)) (W6 m ρ c (Proc.devRef .tc main_v44)) = _
  rw [W6_main_v43, W6_main_v29_1, W6_main_v44]
  rfl

end Cert.KernelIdeal.Fold

end
-- ==== Proof.LibRowGather.lean ====
/-
  A gather of single rows or single entries by a column of start words, read at an index.

  The start indices are an E × 1 array of signed words; entry (e, k) of a gather of rows of an N × C array is the array's
  entry (row e, k), where row e is the e-th start word read signed and clamped into [0, N − 1]; entry e of a gather of
  single entries of a length-N array is the array's entry at that row. A length-E array laid out as an E × 1 column reads
  back its e-th entry.

  General: nothing here mentions a program.
-/
import Idealize.ShloMosaic.PureOps.Ideal
import Idealize.ShloMosaic.Lib.ValueIdx
import Idealize.ShloMosaic.Lib.Pipeline.Value

noncomputable section

namespace Cert.LibRowGather

open Idealize.ShloMosaic Idealize.ShloMosaic.ValueIdx

/-- The row of an `n`-row array a gather reads for the start word `w`: `w` read signed, clamped into `[0, n − 1]`. -/
def clampRow (n : Nat) (hn : 0 < n) (w : BitVec 32) : Fin n := ⟨min w.toInt.toNat (n - 1), by omega⟩

/-- The dimension numbers of a gather of rows: operand N × C, start indices E × 1, result E × C. -/
abbrev rowsDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The dimension numbers of a gather of single entries: operand N, start indices E × 1, result E. -/
abbrev entryDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section Rows
variable {N C E : Nat} (wf : GatherDims.WF ⟨2, ![N, C]⟩ ⟨2, ![E, 1]⟩ ⟨2, ![E, C]⟩ [1] [0] [] [0] [] 1 ![1, C])

/-- On the indexed axis the operand coordinate is the start word of row e, read signed and clamped. -/
theorem rows_coord_zero (idx : IVec ⟨2, ![E, 1]⟩ 32) (e : Fin E) (k : Fin C) :
    ((rowsDims N C E wf).operandIdx (ix2 e k) idx 0).val = min (idx (ix2 e (0 : Fin 1))).toInt.toNat (N - 1) := by
  show (rowsDims N C E wf).start (ix2 e k) idx 0 + (rowsDims N C E wf).batchCoord (ix2 e k) 0
    + (rowsDims N C E wf).offCoord (ix2 e k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N C E wf).startIndexMap from List.mem_singleton.mpr rfl)]
  have hsi : (rowsDims N C E wf).siIdx (ix2 e k) ⟨List.idxOf (0 : Fin 2) (rowsDims N C E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the window axis the operand coordinate is the column. -/
theorem rows_coord_one (idx : IVec ⟨2, ![E, 1]⟩ 32) (e : Fin E) (k : Fin C) :
    ((rowsDims N C E wf).operandIdx (ix2 e k) idx 1).val = k.val := by
  show (rowsDims N C E wf).start (ix2 e k) idx 1 + (rowsDims N C E wf).batchCoord (ix2 e k) 1
    + (rowsDims N C E wf).offCoord (ix2 e k) 1 = _
  have hs : (rowsDims N C E wf).start (ix2 e k) idx 1 = 0 := by
    unfold GatherDims.start
    have h : ¬ (1 : Fin 2) ∈ (rowsDims N C E wf).startIndexMap :=
      show ¬ (1 : Fin 2) ∈ ([0] : List (Fin 2)) by decide
    rw [dif_neg h]
  have ho : (rowsDims N C E wf).offCoord (ix2 e k) 1 = k.val := by
    unfold GatherDims.offCoord
    have h : (1 : Fin 2) ∈ (rowsDims N C E wf).sKept :=
      show (1 : Fin 2) ∈ (List.finRange 2).filter (· ∉ (([0] : List (Fin 2)) ++ [])) by decide
    rw [dif_pos h]
    rfl
  rw [GatherDims.batchCoord_eq_zero _ _ _ List.not_mem_nil, hs, ho]
  simp

end Rows

/-- A gather of rows read at (e, k). -/
theorem gather_rows_apply {α : Type} {N C E : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (k : Fin C) :
    Host.gather (rowsDims N C E wf) x idx (ix2 e k) = x (ix2 (clampRow N hN (idx (ix2 e (0 : Fin 1)))) k) := by
  unfold Host.gather
  refine congrArg x (funext fun a => Fin.ext ?_)
  revert a
  exact Fin.forall_fin_two.2 ⟨rows_coord_zero wf idx e k, rows_coord_one wf idx e k⟩

/-- A gather of single entries read at e. -/
theorem gather_entry_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) :
    Host.gather (entryDims N E wf) x idx (ix1 e) = x (ix1 (clampRow N hN (idx (ix2 e (0 : Fin 1))))) := by
  unfold Host.gather
  congr 1
  funext a
  obtain rfl : a = 0 := Subsingleton.elim _ _
  refine Fin.ext ?_
  show (entryDims N E wf).start (ix1 e) idx 0 + (entryDims N E wf).batchCoord (ix1 e) 0
    + (entryDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims N E wf).startIndexMap from List.mem_singleton.mpr rfl)]
  have hsi : (entryDims N E wf).siIdx (ix1 e) ⟨List.idxOf (0 : Fin 1) (entryDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- A length-E array laid out as an E × 1 column, read at (e, 0). -/
theorem column_apply {α : Type} {E : Nat} (hE : E ≠ 1) (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) := by
  refine broadcastInDim_apply _ h v _ (ix1 e) fun a => ?_
  obtain rfl : a = 0 := Subsingleton.elim _ _
  have h1 : ¬ (⟨1, ![E]⟩ : Shape).size 0 = 1 := hE
  rw [if_neg h1]
  rfl

end Cert.LibRowGather

end
-- ==== Proof.LibRowScatter.lean ====
/-
  A scatter of rows with addition, read at an index; and two such scatters fused into one.

  The operand is an N × C array, the updates an E × C array, and update row e is added into the operand row
  that the e-th scatter index names (read signed, not clamped; a row outside the operand is dropped). Read at
  (n, k), the result is the operand's entry plus the sum of the updates' k-th column over the rows e whose
  index is n.

  Fusing: scattering the 2E rows "u followed by −u" by the indices "r followed by s" gives, at every entry,
  the scatter of u by r MINUS the scatter of u by s — provided the entries of u are real numbers: negation
  does not distribute over a sum of extended reals that contains both infinities.

  General: nothing here mentions a program.
-/
import Idealize.ShloMosaic.PureOps.Ideal
import Idealize.ShloMosaic.Lib.ValueIdx

noncomputable section

open scoped BigOperators

namespace Cert.LibRowScatter

open Idealize.ShloMosaic Idealize.ShloMosaic.ValueIdx Finset

/-! ## Where an update lands, for any dimension numbers -/

/-- An update lands at `i` exactly when, on every operand axis, window start plus window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := congrArg (fun f => (f a).val) hi
      simp only at h1
      have h2 := h a
      omega
    · intro hi
      funext a
      apply Fin.ext
      have h1 := hi a
      simp only
      omega
  · rename_i h
    constructor
    · intro hi; exact absurd hi (by simp)
    · intro hi
      exfalso; apply h
      intro a
      have h1 := hi a
      have h2 := (i a).isLt
      omega

/-! ## Rows -/

/-- The dimension numbers of a scatter of rows: operand N × C, scatter indices E × 1, updates E × C; the
    updates' second axis is the window, the operand's first axis is the one indexed. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)

/-- Where the scatter indices hold update row `e`'s index. -/
abbrev rowAt (e : Fin E) : (⟨2, ![E, 1]⟩ : Shape).Idx := ix2 e (0 : Fin 1)

theorem start_zero (e : Fin E) (k : Fin C) (idx : IVec ⟨2, ![E, 1]⟩ w) :
    (rowDims N C E wf).start (ix2 e k) idx 0 = (idx (rowAt e)).toInt := by
  unfold ScatterDims.start
  rw [dif_pos (show (0 : Fin 2) ∈ (rowDims N C E wf).scatterDimsToOperandDims from List.mem_singleton.mpr rfl)]
  have hsi : (rowDims N C E wf).siIdx (ix2 e k) ⟨List.idxOf (0 : Fin 2) (rowDims N C E wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

theorem start_one (e : Fin E) (k : Fin C) (idx : IVec ⟨2, ![E, 1]⟩ w) :
    (rowDims N C E wf).start (ix2 e k) idx 1 = 0 := by
  unfold ScatterDims.start
  have h : ¬ (1 : Fin 2) ∈ (rowDims N C E wf).scatterDimsToOperandDims :=
    show ¬ (1 : Fin 2) ∈ ([0] : List (Fin 2)) by decide
  rw [dif_neg h]

theorem window_zero (e : Fin E) (k : Fin C) : (rowDims N C E wf).window (ix2 e k) 0 = 0 := by
  unfold ScatterDims.window
  have h : ¬ (0 : Fin 2) ∈ (rowDims N C E wf).sKept :=
    show ¬ (0 : Fin 2) ∈ (List.finRange 2).filter (· ∉ ([0] : List (Fin 2))) by decide
  rw [dif_neg h]

theorem window_one (e : Fin E) (k : Fin C) : (rowDims N C E wf).window (ix2 e k) 1 = k.val := by
  unfold ScatterDims.window
  have h : (1 : Fin 2) ∈ (rowDims N C E wf).sKept :=
    show (1 : Fin 2) ∈ (List.finRange 2).filter (· ∉ ([0] : List (Fin 2))) by decide
  rw [dif_pos h]
  rfl

/-- Update entry (e, k) lands at (n, k') exactly when row e's index is n and the columns agree. -/
theorem resultIdx?_rows (e : Fin E) (k : Fin C) (idx : IVec ⟨2, ![E, 1]⟩ w) (n : Fin N) (k' : Fin C) :
    (rowDims N C E wf).resultIdx? (ix2 e k) idx = some (ix2 n k') ↔ (idx (rowAt e)).toInt = (n.val : Int) ∧ k = k' := by
  rw [resultIdx?_eq_some_iff, Fin.forall_fin_two, start_zero, start_one, window_zero, window_one]
  constructor
  · rintro ⟨h0, h1⟩
    refine ⟨by simpa using h0, Fin.ext ?_⟩
    have : ((k.val : Int)) = ((k'.val : Nat) : Int) := by simpa using h1
    exact_mod_cast this
  · rintro ⟨h0, rfl⟩
    exact ⟨by simpa using h0, by simp⟩

/-- THE SCATTER READ AT (n, k): the operand's entry plus the k-th column of the updates summed over the rows
    whose index is n. -/
theorem hostScatterAdd_rows_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e ∈ univ.filter (fun e : Fin E => (idx (rowAt e)).toInt = (n.val : Int)), upd (ix2 e k) := by
  unfold Ideal.hostScatterAdd
  congr 1
  rw [Finset.sum_filter, sum_idx2, Finset.sum_filter]
  refine Finset.sum_congr rfl fun e _ => ?_
  simp only [resultIdx?_rows]
  by_cases h : (idx (rowAt e)).toInt = (n.val : Int)
  · simp only [h, true_and, if_true]
    rw [Finset.sum_ite_eq' Finset.univ k (fun c => upd (ix2 e c)), if_pos (Finset.mem_univ k)]
  · simp only [h, false_and, if_false, Finset.sum_const_zero]

end Rows

/-! ## Sums of real numbers among the extended reals -/

/-- The inclusion of the reals carries a finite sum to the sum of the inclusions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Negation distributes over a finite sum of real numbers. -/
theorem sum_neg_coe {ι : Type} (s : Finset ι) (f : ι → ℝ) :
    ∑ i ∈ s, -((f i : ℝ) : EReal) = -∑ i ∈ s, ((f i : ℝ) : EReal) := by
  rw [← coe_sum, ← EReal.coe_neg, ← Finset.sum_neg_distrib, coe_sum]
  simp only [EReal.coe_neg]

/-! ## Two scatters in one -/

/-- THE FUSED SUM. Over 2E rows whose indices are `ρ` then `σ` and whose values are `υ` then `−υ` (`υ` real), the
    rows indexed `n` sum to: the rows of `υ` that `ρ` sends to `n`, minus the rows of `υ` that `σ` sends to `n`. -/
theorem sum_fused {E E2 : Nat} (hE : E2 = E + E) (n : Int) (ρ σ : Fin E → Int) (υ : Fin E → ℝ)
    (ρ2 : Fin E2 → Int) (υ2 : Fin E2 → EReal)
    (hl : ∀ (e : Fin E2) (h : e.val < E), ρ2 e = ρ ⟨e.val, h⟩ ∧ υ2 e = ((υ ⟨e.val, h⟩ : ℝ) : EReal))
    (hr : ∀ (e : Fin E2) (h : E ≤ e.val), ρ2 e = σ ⟨e.val - E, by have := e.isLt; omega⟩
      ∧ υ2 e = -((υ ⟨e.val - E, by have := e.isLt; omega⟩ : ℝ) : EReal)) :
    ∑ e ∈ univ.filter (fun e => ρ2 e = n), υ2 e
      = (∑ e ∈ univ.filter (fun e => ρ e = n), ((υ e : ℝ) : EReal))
        - ∑ e ∈ univ.filter (fun e => σ e = n), ((υ e : ℝ) : EReal) := by
  subst hE
  rw [Finset.sum_filter, Fin.sum_univ_add, sub_eq_add_neg, ← sum_neg_coe, Finset.sum_filter, Finset.sum_filter]
  congr 1
  · refine Finset.sum_congr rfl fun e _ => ?_
    obtain ⟨h1, h2⟩ := hl (Fin.castAdd E e) (by simp)
    rw [h1, h2]
    rfl
  · refine Finset.sum_congr rfl fun e _ => ?_
    obtain ⟨h1, h2⟩ := hr (Fin.natAdd E e) (by simp)
    rw [h1, h2]
    have he : (⟨(Fin.natAdd E e).val - E, by simp⟩ : Fin E) = e := Fin.ext (by simp)
    simp only [he]

end Cert.LibRowScatter

end
-- ==== Proof.Graph.lean ====
/-
  The graph as the programs hold it: two E × 1 columns of signed words.

  The destination column says where edge e lands: on the node whose number is the e-th word read signed (an edge whose
  word names no node lands nowhere). The source column says which node's row edge e reads: the e-th word read signed
  and clamped into [0, N − 1].
-/
import proofs.«145033_j42176578846858_2_alg».proof.Proof.LibRowGather
import proofs.«145033_j42176578846858_2_alg».proof.Proof.LibRowScatter

noncomputable section

namespace Cert.Sage

open Idealize.ShloMosaic Idealize.ShloMosaic.ValueIdx

/-- The edges landing on node n. -/
def landing {N E w : Nat} (dst : IVec ⟨2, ![E, 1]⟩ w) (n : Fin N) : Finset (Fin E) :=
  Finset.univ.filter fun e : Fin E => (dst (ix2 e (0 : Fin 1))).toInt = (n.val : Int)

/-- The node whose row edge e reads. -/
def rowOf {N E : Nat} (hN : 0 < N) (src : IVec ⟨2, ![E, 1]⟩ 32) (e : Fin E) : Fin N :=
  Cert.LibRowGather.clampRow N hN (src (ix2 e (0 : Fin 1)))

end Cert.Sage

end
-- ==== Proof.Spec.lean ====
/-
  Two layers of mean aggregation over a graph, as functions on the reals.

  A graph on N nodes is given by E edges; edge e reads node `g e` and lands on the nodes n with e ∈ `L n`.
  One layer sends node features x (N × D) to

      out n k = Σ_d mean n d · Wl k d  +  Σ_d x n d · Wr k d  +  b k,
      mean n d = (Σ_{e ∈ L n} x (g e) d) / max |L n| 1.

  The same layer can be computed by first applying Wl to every node and aggregating the narrower rows, and by
  multiplying with the reciprocal of the count instead of dividing: a finite sum is linear, so over the reals the
  two arrangements agree (`layer_eq_pre`). The network is two layers with max(·, 0) between them.
-/
import Mathlib.Data.Real.Basic
import Mathlib.Algebra.BigOperators.Field
import Mathlib.Algebra.Order.Field.Basic
import Mathlib.Tactic.Ring
import Mathlib.Tactic.Positivity

noncomputable section

open scoped BigOperators

namespace Cert.Sage

variable {N D C E : Nat}

/-- The divisor of the mean at node n: the number of edges landing there, or 1 when there is none. -/
def cnt (L : Fin N → Finset (Fin E)) (n : Fin N) : ℝ := max ((L n).card : ℝ) 1

theorem cnt_pos (L : Fin N → Finset (Fin E)) (n : Fin N) : 0 < cnt L n :=
  lt_of_lt_of_le one_pos (le_max_right _ _)

theorem cnt_ne_zero (L : Fin N → Finset (Fin E)) (n : Fin N) : cnt L n ≠ 0 := (cnt_pos L n).ne'

/-- One layer: the mean of the incoming rows through Wl, the node's own row through Wr, and the bias. -/
def layer (L : Fin N → Finset (Fin E)) (g : Fin E → Fin N) (x : Fin N → Fin D → ℝ) (Wl Wr : Fin C → Fin D → ℝ)
    (b : Fin C → ℝ) (n : Fin N) (k : Fin C) : ℝ :=
  (∑ d, ((∑ e ∈ L n, x (g e) d) / cnt L n) * Wl k d) + (∑ d, x n d * Wr k d) + b k

/-- The same layer with Wl applied to every node first: the aggregated rows are C wide instead of D wide, and the
    mean multiplies by the reciprocal of the count. -/
def layerPre (L : Fin N → Finset (Fin E)) (g : Fin E → Fin N) (x : Fin N → Fin D → ℝ) (Wl Wr : Fin C → Fin D → ℝ)
    (b : Fin C → ℝ) (n : Fin N) (k : Fin C) : ℝ :=
  (∑ e ∈ L n, ∑ d, x (g e) d * Wl k d) * (1 / cnt L n) + (∑ d, x n d * Wr k d) + b k

/-- A finite sum is linear: aggregating after Wl is aggregating before it. -/
theorem layer_eq_pre (L : Fin N → Finset (Fin E)) (g : Fin E → Fin N) (x : Fin N → Fin D → ℝ)
    (Wl Wr : Fin C → Fin D → ℝ) (b : Fin C → ℝ) (n : Fin N) (k : Fin C) :
    layerPre L g x Wl Wr b n k = layer L g x Wl Wr b n k := by
  unfold layerPre layer
  congr 2
  simp only [Finset.sum_mul, Finset.sum_div]
  rw [Finset.sum_comm]
  refine Finset.sum_congr rfl fun d _ => Finset.sum_congr rfl fun e _ => ?_
  ring

/-- max(·, 0) entry by entry. -/
def relu (h : Fin N → Fin C → ℝ) (n : Fin N) (k : Fin C) : ℝ := max (h n k) 0

/-- The network: a layer D → C, max(·, 0), a layer C → C'. -/
def net {C' : Nat} (L : Fin N → Finset (Fin E)) (g : Fin E → Fin N) (x : Fin N → Fin D → ℝ)
    (W1l W1r : Fin C → Fin D → ℝ) (b1 : Fin C → ℝ) (W2l W2r : Fin C' → Fin C → ℝ) (b2 : Fin C' → ℝ) :
    Fin N → Fin C' → ℝ :=
  layer L g (relu (layer L g x W1l W1r b1)) W2l W2r b2

end Cert.Sage

end
-- ==== Proof.MeanValue.lean ====
/-
  The pieces of the mean aggregation read at an index, for any sizes.

  Gathering rows of y by the source column and adding each gathered row into its destination row of an all-zero array
  leaves at (n, k) the sum of y(row of e, k) over the edges e landing on n. A length-N vector laid out as a column and
  repeated along the rows reads v(n) at (n, k). A splat constant reads its value everywhere. A length-C vector laid out
  as a one-row array reads v(k) at (0, k). And, on real inputs, the kernel's arrangement of a layer — the sum of
  already-projected rows times the reciprocal of the divisor — is the inclusion of the layer on the reals.
-/
import Idealize.ShloMosaic.PureOps.Ideal
import Idealize.ShloMosaic.Lib.Pipeline.Value
import Idealize.ShloMosaic.Lib.ValueIdx
import proofs.«145033_j42176578846858_2_alg».proof.Proof.LibRowGather
import proofs.«145033_j42176578846858_2_alg».proof.Proof.LibRowScatter
import proofs.«145033_j42176578846858_2_alg».proof.Proof.Graph
import proofs.«145033_j42176578846858_2_alg».proof.Proof.Spec

noncomputable section

open scoped BigOperators

namespace Cert.Sage

open Idealize.ShloMosaic Idealize.ShloMosaic.ValueIdx

/-- Gather by the source column, then scatter-add by the destination column into zeros, read at (n, k). -/
theorem scatter_gather_apply {N C E : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (z y : (⟨2, ![N, C]⟩ : Shape).Idx → EReal) (src dst : IVec ⟨2, ![E, 1]⟩ 32) (hz : ∀ i, z i = 0)
    (n : Fin N) (k : Fin C) :
    Ideal.hostScatterAdd (Cert.LibRowScatter.rowDims N C E wfS) z dst
        (Host.gather (Cert.LibRowGather.rowsDims N C E wfG) y src) (ix2 n k)
      = ∑ e ∈ landing dst n, y (ix2 (rowOf hN src e) k) := by
  rw [Cert.LibRowScatter.hostScatterAdd_rows_apply, hz, zero_add]
  exact Finset.sum_congr rfl fun e _ => Cert.LibRowGather.gather_rows_apply hN wfG y src e k

/-- A vector as a column, repeated along the rows, read at (n, k). -/
theorem column_rows_apply {α : Type} {N C : Nat} (hN1 : N ≠ 1)
    (h1 : (⟨1, ![N]⟩ : Shape).BroadcastsInDim ⟨2, ![N, 1]⟩ ![0])
    (h2 : (⟨2, ![N, 1]⟩ : Shape).BroadcastsInDim ⟨2, ![N, C]⟩ ![0, 1])
    (v : (⟨1, ![N]⟩ : Shape).Idx → α) (n : Fin N) (k : Fin C) :
    broadcastInDim ⟨2, ![N, C]⟩ ![0, 1] h2 (broadcastInDim ⟨2, ![N, 1]⟩ ![0] h1 v) (ix2 n k) = v (ix1 n) := by
  refine (broadcastInDim_apply _ h2 _ (ix2 n k) (ix2 n (0 : Fin 1)) ?_).trans (Cert.LibRowGather.column_apply hN1 h1 v n)
  refine Fin.forall_fin_two.2 ⟨?_, ?_⟩
  · have h : ¬ (⟨2, ![N, 1]⟩ : Shape).size 0 = 1 := hN1
    rw [if_neg h]; rfl
  · have h : (⟨2, ![N, 1]⟩ : Shape).size 1 = 1 := rfl
    rw [if_pos h]; rfl

/-- A splat constant read anywhere. -/
theorem splat_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  broadcastInDim_apply _ h _ i (fun a => a.elim0) (fun a => a.elim0)

/-- A vector laid out as a one-row array, read at (0, k). -/
theorem one_row_apply {α : Type} {C : Nat} (h : (⟨1, ![C]⟩ : Shape).ShapeCasts ⟨2, ![1, C]⟩)
    (v : (⟨1, ![C]⟩ : Shape).Idx → α) (k : Fin C) :
    shapeCast ⟨2, ![1, C]⟩ v h (ix2 (0 : Fin 1) k) = v (ix1 k) := by
  refine (shapeCast_addUnit_apply ![C] v h (ix2 (0 : Fin 1) k)).trans (congrArg v ?_)
  funext a
  obtain rfl : a = 0 := Subsingleton.elim _ _
  rfl

/-- The kernel's arrangement of a layer on real inputs: the projected rows summed over the landing edges, times the
    reciprocal of the divisor, plus the node's own projected row and the bias, is the layer. -/
theorem layerPre_coe {N D C E : Nat} (L : Fin N → Finset (Fin E)) (g : Fin E → Fin N) (x : Fin N → Fin D → ℝ)
    (Wl Wr : Fin C → Fin D → ℝ) (b : Fin C → ℝ) (n : Fin N) (k : Fin C) :
    (∑ e ∈ L n, ((∑ d, x (g e) d * Wl k d : ℝ) : EReal)) * Ideal.div 1 ((cnt L n : ℝ) : EReal)
        + ((∑ d, x n d * Wr k d : ℝ) : EReal) + ((b k : ℝ) : EReal)
      = ((layer L g x Wl Wr b n k : ℝ) : EReal) := by
  rw [← layer_eq_pre, Ideal.div_coe (cnt_ne_zero L n), one_mul, ← Cert.LibRowScatter.coe_sum, ← EReal.coe_mul,
    ← EReal.coe_add, ← EReal.coe_add]
  rfl

end Cert.Sage

end
-- ==== Proof.LayerValue.lean ====
/-
  One layer of mean aggregation, computed among the extended reals on real inputs.

  When every input is a real number, the sums, the quotient by the (positive) divisor of the mean, the products with the
  weights and the bias stay among the reals, so the extended-real expression a program evaluates is the inclusion of
  `Cert.Sage.layer`; likewise max(·, 0). Generic in the sizes.
-/
import Idealize.ShloMosaic.PureOps.Ideal
import proofs.«145033_j42176578846858_2_alg».proof.Proof.LibRowScatter
import proofs.«145033_j42176578846858_2_alg».proof.Proof.Spec

noncomputable section

open scoped BigOperators

namespace Cert.Sage

open Idealize.ShloMosaic Cert.LibRowScatter

variable {N D C E : Nat}

/-- The mean of the incoming rows, entry (n, d): zero plus the sum of real numbers, divided by the divisor of the mean. -/
theorem mean_coe (L : Fin N → Finset (Fin E)) (g : Fin E → Fin N) (x : Fin N → Fin D → ℝ) (n : Fin N) (d : Fin D) :
    Ideal.div (0 + ∑ e ∈ L n, ((x (g e) d : ℝ) : EReal)) ((cnt L n : ℝ) : EReal)
      = (((∑ e ∈ L n, x (g e) d) / cnt L n : ℝ) : EReal) := by
  rw [Ideal.div_coe (cnt_ne_zero L n), zero_add, ← coe_sum, ← EReal.coe_mul, mul_one_div]

/-- A row of real numbers against a row of real weights. -/
theorem dot_coe (u v : Fin D → ℝ) : ∑ d, ((u d : ℝ) : EReal) * ((v d : ℝ) : EReal) = ((∑ d, u d * v d : ℝ) : EReal) := by
  rw [coe_sum]
  refine Finset.sum_congr rfl fun d _ => ?_
  rw [EReal.coe_mul]

/-- THE LAYER: mean through Wl, plus the node's own row through Wr, plus the bias. -/
theorem layer_coe (L : Fin N → Finset (Fin E)) (g : Fin E → Fin N) (x : Fin N → Fin D → ℝ) (Wl Wr : Fin C → Fin D → ℝ)
    (b : Fin C → ℝ) (n : Fin N) (k : Fin C) :
    (∑ d, Ideal.div (0 + ∑ e ∈ L n, ((x (g e) d : ℝ) : EReal)) ((cnt L n : ℝ) : EReal) * ((Wl k d : ℝ) : EReal))
        + (∑ d, ((x n d : ℝ) : EReal) * ((Wr k d : ℝ) : EReal)) + ((b k : ℝ) : EReal)
      = ((layer L g x Wl Wr b n k : ℝ) : EReal) := by
  simp only [mean_coe]
  rw [dot_coe (fun d => (∑ e ∈ L n, x (g e) d) / cnt L n) (Wl k), dot_coe (x n) (Wr k), ← EReal.coe_add, ← EReal.coe_add]
  rfl

/-- max(·, 0) of a real number. -/
theorem relu_coe (h : Fin N → Fin C → ℝ) (n : Fin N) (k : Fin C) :
    max ((h n k : ℝ) : EReal) 0 = ((relu h n k : ℝ) : EReal) := by
  unfold relu
  rw [EReal.coe_strictMono.monotone.map_max, EReal.coe_zero]

end Cert.Sage

end
-- ==== Proof.LibEntryScatter.lean ====
/-
  A scatter of single entries with addition, read at an index; and the scatter that counts.

  The operand is an array of N entries, the updates an array of E entries, and update e is added into the
  operand entry that the e-th scatter index names (read signed, not clamped; an update whose index names no
  entry is dropped). Read at n, the result is the operand's entry plus the sum of the updates e whose index is n.

  Counting: when the operand is 0 everywhere and every update is the real number 1, the entry at n is the
  number of updates whose index is n.

  General: nothing here mentions a program.
-/
import Idealize.ShloMosaic.PureOps.Ideal
import Idealize.ShloMosaic.Lib.ValueIdx
import proofs.«145033_j42176578846858_2_alg».proof.Proof.LibRowScatter

noncomputable section

open scoped BigOperators

namespace Cert.LibEntryScatter

open Idealize.ShloMosaic Idealize.ShloMosaic.ValueIdx Finset

/-! ## Sums over a rank-1 index set -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Entries -/

/-- The dimension numbers of a scatter of single entries: operand of N entries, scatter indices E × 1, updates
    of E entries; the updates have no window axis, the operand's only axis is the one indexed. -/
abbrev entryDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Entries
variable {N E w : Nat} (wf : ScatterDims.WF ⟨1, ![N]⟩ ⟨2, ![E, 1]⟩ ⟨1, ![E]⟩ [] [0] [0] 1)

/-- Where the scatter indices hold update `e`'s index. -/
abbrev entryAt (e : Fin E) : (⟨2, ![E, 1]⟩ : Shape).Idx := ix2 e (0 : Fin 1)

theorem start_zero (e : Fin E) (idx : IVec ⟨2, ![E, 1]⟩ w) :
    (entryDims N E wf).start (ix1 e) idx 0 = (idx (entryAt e)).toInt := by
  unfold ScatterDims.start
  rw [dif_pos (show (0 : Fin 1) ∈ (entryDims N E wf).scatterDimsToOperandDims from List.mem_singleton.mpr rfl)]
  have hsi : (entryDims N E wf).siIdx (ix1 e) ⟨List.idxOf (0 : Fin 1) (entryDims N E wf).scatterDimsToOperandDims,
      List.idxOf_lt_length_iff.2 (List.mem_singleton.mpr rfl)⟩ = entryAt e := by
    funext b; refine Fin.ext ?_
    match b with
    | ⟨0, _⟩ => rfl
    | ⟨1, _⟩ => rfl
  rw [hsi]

theorem window_zero (e : Fin E) : (entryDims N E wf).window (ix1 e) 0 = 0 := by
  unfold ScatterDims.window
  have h : ¬ (0 : Fin 1) ∈ (entryDims N E wf).sKept :=
    show ¬ (0 : Fin 1) ∈ (List.finRange 1).filter (· ∉ ([0] : List (Fin 1))) by decide
  rw [dif_neg h]

/-- Update e lands at n exactly when its index is n. -/
theorem resultIdx?_entries (e : Fin E) (idx : IVec ⟨2, ![E, 1]⟩ w) (n : Fin N) :
    (entryDims N E wf).resultIdx? (ix1 e) idx = some (ix1 n) ↔ (idx (entryAt e)).toInt = (n.val : Int) := by
  rw [Cert.LibRowScatter.resultIdx?_eq_some_iff, Fin.forall_fin_one, start_zero, window_zero]
  constructor
  · intro h0; simpa using h0
  · intro h0; simpa using h0

/-- THE SCATTER READ AT n: the operand's entry plus the updates summed over the e whose index is n. -/
theorem hostScatterAdd_entries_apply (x : (⟨1, ![N]⟩ : Shape).Idx → EReal) (idx : IVec ⟨2, ![E, 1]⟩ w)
    (upd : (⟨1, ![E]⟩ : Shape).Idx → EReal) (n : Fin N) :
    Ideal.hostScatterAdd (entryDims N E wf) x idx upd (ix1 n)
      = x (ix1 n) + ∑ e ∈ univ.filter (fun e : Fin E => (idx (ix2 e (0 : Fin 1))).toInt = (n.val : Int)), upd (ix1 e) := by
  unfold Ideal.hostScatterAdd
  congr 1
  rw [Finset.sum_filter, sum_idx1, Finset.sum_filter]
  refine Finset.sum_congr rfl fun e _ => ?_
  simp only [resultIdx?_entries]

/-- THE COUNT. With operand 0 and every update the real number 1, the entry at n is the number of updates whose
    index is n. -/
theorem hostScatterAdd_count_apply (x : (⟨1, ![N]⟩ : Shape).Idx → EReal) (idx : IVec ⟨2, ![E, 1]⟩ w)
    (upd : (⟨1, ![E]⟩ : Shape).Idx → EReal) (hx : ∀ n, x (ix1 n) = 0) (hu : ∀ e, upd (ix1 e) = ((1 : ℝ) : EReal))
    (n : Fin N) :
    Ideal.hostScatterAdd (entryDims N E wf) x idx upd (ix1 n)
      = (((univ.filter (fun e : Fin E => (idx (ix2 e (0 : Fin 1))).toInt = (n.val : Int))).card : ℝ) : EReal) := by
  rw [hostScatterAdd_entries_apply, hx, zero_add]
  simp only [hu]
  rw [← Cert.LibRowScatter.coe_sum]
  simp

end Entries

end Cert.LibEntryScatter

end
-- ==== Proof.CountValue.lean ====
/-
  The divisor of the mean, as a scatter computes it.

  Scattering the number 1 once per edge into an array of zeros, by the destination column, leaves at node n the
  number of edges landing on n; the larger of that and 1 is the divisor `Cert.Sage.cnt` of the mean at n.
-/
import proofs.«145033_j42176578846858_2_alg».proof.Proof.LibEntryScatter
import proofs.«145033_j42176578846858_2_alg».proof.Proof.Graph
import proofs.«145033_j42176578846858_2_alg».proof.Proof.Spec

noncomputable section

open scoped BigOperators

namespace Cert.Sage

open Idealize.ShloMosaic Idealize.ShloMosaic.ValueIdx Cert.LibEntryScatter

/-- The count at node n: zeros, plus a 1 for every edge whose destination word is n. -/
theorem scatter_ones_eq_card {N E w : Nat} (wf : ScatterDims.WF ⟨1, ![N]⟩ ⟨2, ![E, 1]⟩ ⟨1, ![E]⟩ [] [0] [0] 1)
    (x : (⟨1, ![N]⟩ : Shape).Idx → EReal) (dst : IVec ⟨2, ![E, 1]⟩ w) (upd : (⟨1, ![E]⟩ : Shape).Idx → EReal)
    (hx : ∀ n, x (ix1 n) = 0) (hu : ∀ e, upd (ix1 e) = 1) (n : Fin N) :
    Ideal.hostScatterAdd (entryDims N E wf) x dst upd (ix1 n) = ((((landing dst n).card : ℝ)) : EReal) :=
  hostScatterAdd_count_apply wf x dst upd hx (fun e => by rw [hu e, EReal.coe_one]) n

/-- THE DIVISOR: the larger of the count and 1 is `cnt`. -/
theorem max_scatter_ones_eq_cnt {N E w : Nat} (wf : ScatterDims.WF ⟨1, ![N]⟩ ⟨2, ![E, 1]⟩ ⟨1, ![E]⟩ [] [0] [0] 1)
    (x : (⟨1, ![N]⟩ : Shape).Idx → EReal) (dst : IVec ⟨2, ![E, 1]⟩ w) (upd : (⟨1, ![E]⟩ : Shape).Idx → EReal)
    (hx : ∀ n, x (ix1 n) = 0) (hu : ∀ e, upd (ix1 e) = 1) (n : Fin N) :
    max (Ideal.hostScatterAdd (entryDims N E wf) x dst upd (ix1 n)) 1 = ((cnt (landing dst) n : ℝ) : EReal) := by
  rw [scatter_ones_eq_card wf x dst upd hx hu n]
  unfold cnt
  rw [EReal.coe_strictMono.monotone.map_max, EReal.coe_one]

end Cert.Sage

end
-- ==== Proof.KernelValue.lean ====
/-
  The idealized kernel's result on real inputs is the network on the reals.

  With every float input a real number: x · W_lᵀ and x · W_rᵀ are real sums; the in-degree is a count, so its maximum
  with one is a nonzero real and its reciprocal is real; the mean of the gathered rows of x · W_lᵀ is a real sum times
  that reciprocal. By the linearity of finite sums (`Cert.Sage.layer_eq_pre`) the first combine region's array is
  max(layer, 0) of the reals, and the same argument on those hidden features gives the second layer: the result buffer
  holds `Cert.Sage.net` entry by entry.
-/
import proofs.«145033_j42176578846858_2_alg».proof.Proof.KernelFold
import proofs.«145033_j42176578846858_2_alg».proof.Proof.MeanValue
import proofs.«145033_j42176578846858_2_alg».proof.Proof.LayerValue
import proofs.«145033_j42176578846858_2_alg».proof.Proof.CountValue
import Idealize.ShloMosaic.Lib.IdealHost

set_option maxRecDepth 16384

noncomputable section

open scoped BigOperators

namespace Cert.KernelIdeal.Value

open Cert.KernelIdeal Cert.KernelIdeal.Gen Cert.KernelIdeal.Stage Cert.KernelIdeal.Fold Cert.Sage
open Idealize.ShloMosaic Idealize.ShloMosaic.TcCoe Idealize.ShloMosaic.ValueIdx Idealize.SL.Sem

variable (m : (ℓ : Loc nD τ sig) → Buf (Elt Ideal) ℓ) (c : Dev nD)

/-- The edges landing on a node, by the kernel's destination column. -/
abbrev Lk : Fin 10000 → Finset (Fin 160000) := landing (N := 10000) (dstCol (F := Ideal) (m ((c : Thread nD τ).loc main_arg1)))
/-- The node an edge reads, by the kernel's source column. -/
abbrev gk : Fin 160000 → Fin 10000 := rowOf (N := 10000) (by norm_num) (srcCol (F := Ideal) (m ((c : Thread nD τ).loc main_arg1)))

/-! ## The printed dimension records are the general ones -/

theorem rows128_eq : scatter_S10000x128_S160000x1_S160000x128_1_0_0_1
    = Cert.LibRowScatter.rowDims 10000 128 160000 scatter_S10000x128_S160000x1_S160000x128_1_0_0_1_wf := rfl
theorem gather128_eq : gather_S10000x128_S160000x1_S160000x128_1_0_n_n_0_1_1128
    = Cert.LibRowGather.rowsDims 10000 128 160000 gather_S10000x128_S160000x1_S160000x128_1_0_n_n_0_1_1128_wf := rfl
theorem rows64_eq : scatter_S10000x64_S160000x1_S160000x64_1_0_0_1
    = Cert.LibRowScatter.rowDims 10000 64 160000 scatter_S10000x64_S160000x1_S160000x64_1_0_0_1_wf := rfl
theorem gather64_eq : gather_S10000x64_S160000x1_S160000x64_1_0_n_n_0_1_164
    = Cert.LibRowGather.rowsDims 10000 64 160000 gather_S10000x64_S160000x1_S160000x64_1_0_n_n_0_1_164_wf := rfl

/-! ## The degree and its reciprocal -/

theorem degMax_apply (n : Fin 10000) :
    degMax (F := Ideal) (m ((c : Thread nD τ).loc main_arg1)) (ix1 n) = ((cnt (Lk m c) n : ℝ) : EReal) := by
  have h1 : (broadcastInDim S10000 ![] bcast_S_S10000 (constant (F := Ideal) S_ .f32 0x3F800000#32)) (ix1 n) = 1 := by
    rw [splat_apply, Ideal.ofBits_one_f32]
  show max _ ((broadcastInDim S10000 ![] bcast_S_S10000 (constant (F := Ideal) S_ .f32 0x3F800000#32)) (ix1 n)) = _
  rw [h1]
  exact max_scatter_ones_eq_cnt scatter_S10000_S160000x1_S160000_n_0_0_1_wf _ (dstCol (F := Ideal) (m ((c : Thread nD τ).loc main_arg1))) _
    (fun n => by rw [splat_apply, Ideal.ofBits_zero_f32]) (fun e => by rw [splat_apply, Ideal.ofBits_one_f32]) n

/-- The host's quotient of two arrays at an index. -/
theorem hostDivf_apply {s : Shape} {φ : FTy} (a b : FVec Ideal s φ) (i : s.Idx) :
    Host.divf a b i = Ideal.div (a i) (b i) := rfl

theorem invDeg_apply (n : Fin 10000) :
    invDeg (F := Ideal) (m ((c : Thread nD τ).loc main_arg1)) (ix1 n) = Ideal.div 1 ((cnt (Lk m c) n : ℝ) : EReal) := by
  unfold invDeg
  rw [hostDivf_apply, splat_apply, Ideal.ofBits_one_f32, degMax_apply]

/-! ## The inputs are real -/

variable (xr : Fin 10000 → Fin 512 → ℝ) (W1l W1r : Fin 128 → Fin 512 → ℝ) (b1 : Fin 128 → ℝ)
  (W2l W2r : Fin 64 → Fin 128 → ℝ) (b2 : Fin 64 → ℝ)
variable (h0 : ∀ n d, (m ((c : Thread nD τ).loc main_arg0)) (ix2 n d) = ((xr n d : ℝ) : EReal))
  (h2 : ∀ k d, (m ((c : Thread nD τ).loc main_arg2)) (ix2 k d) = ((W1l k d : ℝ) : EReal))
  (h3 : ∀ k d, (m ((c : Thread nD τ).loc main_arg3)) (ix2 k d) = ((W1r k d : ℝ) : EReal))
  (h4 : ∀ k, (m ((c : Thread nD τ).loc main_arg4)) (ix1 k) = ((b1 k : ℝ) : EReal))
  (h5 : ∀ k d, (m ((c : Thread nD τ).loc main_arg5)) (ix2 k d) = ((W2l k d : ℝ) : EReal))
  (h6 : ∀ k d, (m ((c : Thread nD τ).loc main_arg6)) (ix2 k d) = ((W2r k d : ℝ) : EReal))
  (h7 : ∀ k, (m ((c : Thread nD τ).loc main_arg7)) (ix1 k) = ((b2 k : ℝ) : EReal))

/-! ## The first layer -/

include h0 h2 in
theorem yl1_apply (r : Fin 10000) (k : Fin 128) : yl1 m c (ix2 r k) = ((∑ d, xr r d * W1l k d : ℝ) : EReal) := by
  unfold yl1
  rw [rowsT_apply]
  simp only [h0, h2]
  exact dot_coe (xr r) (W1l k)

include h0 h3 in
theorem yr1_apply (r : Fin 10000) (k : Fin 128) : yr1 m c (ix2 r k) = ((∑ d, xr r d * W1r k d : ℝ) : EReal) := by
  unfold yr1
  rw [rowsT_apply]
  simp only [h0, h3]
  exact dot_coe (xr r) (W1r k)

include h4 in
theorem bias1_apply (k : Fin 128) : bias1 m c (ix2 (0 : Fin 1) k) = ((b1 k : ℝ) : EReal) := by
  unfold bias1 biasRow128
  rw [one_row_apply]
  exact h4 k

include h0 h2 in
theorem agg1_apply (n : Fin 10000) (k : Fin 128) :
    agg1 m c (ix2 n k) = (∑ e ∈ Lk m c n, ((∑ d, xr (gk m c e) d * W1l k d : ℝ) : EReal))
      * Ideal.div 1 ((cnt (Lk m c) n : ℝ) : EReal) := by
  unfold agg1 mean128
  rw [mulf_apply, column_rows_apply (by norm_num) bcast_S10000_S10000x1_0 bcast_S10000x1_S10000x128_0_1 _ n k, invDeg_apply,
    Host.scatterAdd, Ideal.hostScatterAdd_def, rows128_eq, Cert.LibRowScatter.hostScatterAdd_rows_apply, splat_apply,
    Ideal.ofBits_zero_f32, zero_add]
  refine congrArg (fun z : EReal => z * Ideal.div 1 ((cnt (Lk m c) n : ℝ) : EReal)) (Finset.sum_congr rfl fun e _ => ?_)
  rw [extf_apply, gather128_eq, Cert.LibRowGather.gather_rows_apply (by norm_num : 0 < 10000)]
  exact yl1_apply m c xr W1l h0 h2 _ k

include h0 h2 h3 h4 in
theorem hidden_apply (n : Fin 10000) (k : Fin 128) :
    Fold.hidden m c (ix2 n k) = ((relu (layer (Lk m c) (gk m c) xr W1l W1r b1) n k : ℝ) : EReal) := by
  unfold Fold.hidden
  rw [addBiasMax_apply, agg1_apply m c xr W1l h0 h2, yr1_apply m c xr W1r h0 h3, bias1_apply m c b1 h4, layerPre_coe]
  exact relu_coe _ n k

/-! ## The second layer, on the hidden features -/

include h0 h2 h3 h4 h5 in
theorem yl2_apply (r : Fin 10000) (k : Fin 64) :
    yl2 m c (ix2 r k) = ((∑ d, relu (layer (Lk m c) (gk m c) xr W1l W1r b1) r d * W2l k d : ℝ) : EReal) := by
  unfold yl2
  rw [rowsT_apply]
  simp only [hidden_apply m c xr W1l W1r b1 h0 h2 h3 h4, h5]
  exact dot_coe (relu (layer (Lk m c) (gk m c) xr W1l W1r b1) r) (W2l k)

include h0 h2 h3 h4 h6 in
theorem yr2_apply (r : Fin 10000) (k : Fin 64) :
    yr2 m c (ix2 r k) = ((∑ d, relu (layer (Lk m c) (gk m c) xr W1l W1r b1) r d * W2r k d : ℝ) : EReal) := by
  unfold yr2
  rw [rowsT_apply]
  simp only [hidden_apply m c xr W1l W1r b1 h0 h2 h3 h4, h6]
  exact dot_coe (relu (layer (Lk m c) (gk m c) xr W1l W1r b1) r) (W2r k)

include h7 in
theorem bias2_apply (k : Fin 64) : bias2 m c (ix2 (0 : Fin 1) k) = ((b2 k : ℝ) : EReal) := by
  unfold bias2 biasRow64
  rw [one_row_apply]
  exact h7 k

include h0 h2 h3 h4 h5 in
theorem agg2_apply (n : Fin 10000) (k : Fin 64) :
    agg2 m c (ix2 n k)
      = (∑ e ∈ Lk m c n, ((∑ d, relu (layer (Lk m c) (gk m c) xr W1l W1r b1) (gk m c e) d * W2l k d : ℝ) : EReal))
        * Ideal.div 1 ((cnt (Lk m c) n : ℝ) : EReal) := by
  unfold agg2 mean64
  rw [mulf_apply, column_rows_apply (by norm_num) bcast_S10000_S10000x1_0 bcast_S10000x1_S10000x64_0_1 _ n k, invDeg_apply,
    Host.scatterAdd, Ideal.hostScatterAdd_def, rows64_eq, Cert.LibRowScatter.hostScatterAdd_rows_apply, splat_apply,
    Ideal.ofBits_zero_f32, zero_add]
  refine congrArg (fun z : EReal => z * Ideal.div 1 ((cnt (Lk m c) n : ℝ) : EReal)) (Finset.sum_congr rfl fun e _ => ?_)
  rw [extf_apply, gather64_eq, Cert.LibRowGather.gather_rows_apply (by norm_num : 0 < 10000)]
  exact yl2_apply m c xr W1l W1r b1 W2l h0 h2 h3 h4 h5 _ k

include h0 h2 h3 h4 h5 h6 h7 in
/-- THE KERNEL'S RESULT at an entry is the network on the reals. -/
theorem result_apply (n : Fin 10000) (k : Fin 64) :
    result m c (ix2 n k) = ((net (Lk m c) (gk m c) xr W1l W1r b1 W2l W2r b2 n k : ℝ) : EReal) := by
  unfold result
  rw [addBias_apply, agg2_apply m c xr W1l W1r b1 W2l h0 h2 h3 h4 h5, yr2_apply m c xr W1l W1r b1 W2r h0 h2 h3 h4 h6,
    bias2_apply m c b2 h7, layerPre_coe]
  rfl

end Cert.KernelIdeal.Value

end
-- ==== Proof.RefCount.lean ====
/-
  The reference's divisor of the mean.

  The reference scatters a 1 per edge into zeros by the destination column and takes the larger of the result and 1:
  at node n this is `Cert.Sage.cnt` over the edges landing on n. The second layer computes the same array again.
-/
import proofs.«145033_j42176578846858_2_alg».proof.Proof.Gen.ReferenceIdeal.Read
import Idealize.ShloMosaic.Lib.IdealHost
import proofs.«145033_j42176578846858_2_alg».proof.Proof.CountValue

noncomputable section

open scoped BigOperators

namespace Cert.Sage.Ref

open Cert.ReferenceIdeal Cert.ReferenceIdeal.Gen Cert.ReferenceIdeal.Read Idealize.ShloMosaic Idealize.ShloMosaic.ValueIdx

/-- The counting scatter's dimension numbers are those of a scatter of single entries. -/
theorem entry_rec_eq : scatter_S10000_S160000x1_S160000_n_0_0_1
    = Cert.LibEntryScatter.entryDims 10000 160000 scatter_S10000_S160000x1_S160000_n_0_0_1_wf := rfl

/-- The updates of the counting scatter are all 1. -/
theorem ones_apply (e : Fin 160000) : val_main_v14 (F := Ideal) (ix1 e) = (1 : EReal) := by
  rw [val_main_v14_apply, val_main_cst_1_apply, Ideal.ofBits_def, Ideal.ofBits_one_f32]

/-- The operand of the counting scatter is all 0. -/
theorem zeros_apply (n : Fin 10000) : val_main_v15 (F := Ideal) (ix1 n) = (0 : EReal) := by
  rw [val_main_v15_apply, val_main_cst_2_apply, Ideal.ofBits_def, Ideal.ofBits_zero_f32]

/-- The array the count is compared with is all 1. -/
theorem one_apply (n : Fin 10000) : val_main_v18 (F := Ideal) (ix1 n) = (1 : EReal) := by
  rw [val_main_v18_apply, val_main_cst_3_apply, Ideal.ofBits_def, Ideal.ofBits_one_f32]

/-- The count is scattered by the same column as the rows. -/
theorem dst_count (x1 : (⟨S2x160000, .i32⟩ : BufTy).Contents (Elt Ideal)) :
    val_main_v16 (F := Ideal) x1 = val_main_v12 (F := Ideal) x1 := rfl

/-- THE DIVISOR at node n. -/
theorem count_value (x1 : (⟨S2x160000, .i32⟩ : BufTy).Contents (Elt Ideal)) (n : Fin 10000) :
    val_main_v19 (F := Ideal) x1 (ix1 n) = ((cnt (landing (val_main_v12 (F := Ideal) x1)) n : ℝ) : EReal) := by
  rw [val_main_v19_apply, one_apply, Ideal.maximumf_def, val_main_v17, Host.scatterAdd, Ideal.hostScatterAdd_def,
    entry_rec_eq, dst_count]
  exact max_scatter_ones_eq_cnt _ _ _ _ zeros_apply ones_apply n

/-- The second layer's divisor is the first layer's: the same operations on the same column. -/
theorem count_again (x1 : (⟨S2x160000, .i32⟩ : BufTy).Contents (Elt Ideal)) :
    val_main_v47 (F := Ideal) x1 = val_main_v19 (F := Ideal) x1 := rfl

end Cert.Sage.Ref

end
-- ==== Proof.RefLayer1.lean ====
/-
  The reference's first layer read at an index, on real inputs.

  Entry (n, c) of the reference's first hidden array is max(·, 0) of `Cert.Sage.layer` at (n, c): the aggregated rows are
  a scatter of gathered rows, the divisor is the count, and the two products and the bias are sums of real numbers.
-/
import proofs.«145033_j42176578846858_2_alg».proof.Proof.Gen.ReferenceIdeal.Read
import Idealize.ShloMosaic.Lib.IdealHost
import proofs.«145033_j42176578846858_2_alg».proof.Proof.RefCount
import proofs.«145033_j42176578846858_2_alg».proof.Proof.LayerValue

noncomputable section

open scoped BigOperators

namespace Cert.Sage.Ref

open Cert.ReferenceIdeal Cert.ReferenceIdeal.Gen Cert.ReferenceIdeal.Read Idealize.ShloMosaic Idealize.ShloMosaic.ValueIdx

/-- Two rank-2 indices with the same coordinates are equal. -/
theorem ix2_ext {n0 n1 : Nat} {i j : (⟨2, ![n0, n1]⟩ : Shape).Idx} (h0 : (i 0).val = (j 0).val)
    (h1 : (i 1).val = (j 1).val) : i = j :=
  funext fun a => Fin.ext (by revert a; exact Fin.forall_fin_two.2 ⟨h0, h1⟩)

/-- Two rank-1 indices with the same coordinate are equal. -/
theorem ix1_ext {n0 : Nat} {i j : (⟨1, ![n0]⟩ : Shape).Idx} (h0 : (i 0).val = (j 0).val) : i = j :=
  funext fun a => Fin.ext (by obtain rfl : a = 0 := Subsingleton.elim _ _; exact h0)

/-- There is a node. -/
theorem hN : 0 < 10000 := by norm_num

section
variable (x0 : (⟨S10000x512, .f32⟩ : BufTy).Contents (Elt Ideal)) (x1 : (⟨S2x160000, .i32⟩ : BufTy).Contents (Elt Ideal))
  (x2 x3 : (⟨S128x512, .f32⟩ : BufTy).Contents (Elt Ideal)) (x4 : (⟨S128, .f32⟩ : BufTy).Contents (Elt Ideal))
  (xr : Fin 10000 → Fin 512 → ℝ) (W1l W1r : Fin 128 → Fin 512 → ℝ) (b1 : Fin 128 → ℝ)

/-- The first layer's scatter of rows has the dimension numbers of a scatter of rows. -/
theorem rows512_eq : scatter_S10000x512_S160000x1_S160000x512_1_0_0_1
    = Cert.LibRowScatter.rowDims 10000 512 160000 scatter_S10000x512_S160000x1_S160000x512_1_0_0_1_wf := rfl

/-- The first layer's gather of rows has the dimension numbers of a gather of rows. -/
theorem gather512_eq : gather_S10000x512_S160000x1_S160000x512_1_0_n_n_0_1_1512
    = Cert.LibRowGather.rowsDims 10000 512 160000 gather_S10000x512_S160000x1_S160000x512_1_0_n_n_0_1_1512_wf := rfl

/-- The aggregated rows: zero plus, over the edges landing on n, the source node's entry. -/
theorem agg1 (h0 : ∀ n d, x0 (ix2 n d) = ((xr n d : ℝ) : EReal)) (n : Fin 10000) (d : Fin 512) :
    val_main_v13 (F := Ideal) x0 x1 (ix2 n d)
      = 0 + ∑ e ∈ landing (val_main_v12 (F := Ideal) x1) n,
          ((xr (rowOf hN (val_main_v9 (F := Ideal) x1) e) d : ℝ) : EReal) := by
  rw [val_main_v13, Host.scatterAdd, Ideal.hostScatterAdd_def, rows512_eq,
    Cert.LibRowScatter.hostScatterAdd_rows_apply, val_main_v11_apply, val_main_cst_apply, Ideal.ofBits_def,
    Ideal.ofBits_zero_f32]
  refine congrArg (0 + ·) (Finset.sum_congr rfl fun e _ => ?_)
  rw [val_main_v10, gather512_eq, Cert.LibRowGather.gather_rows_apply hN, h0]
  rfl

/-- The divisor, as the quotient reads it at (n, d). -/
theorem div1 (n : Fin 10000) (d : Fin 512) :
    val_main_v21 (F := Ideal) x1 (ix2 n d) = ((cnt (landing (val_main_v12 (F := Ideal) x1)) n : ℝ) : EReal) := by
  rw [val_main_v21_apply, val_main_v20_apply,
    show idx_main_v20 (idx_main_v21 (ix2 n d)) = ix1 n from ix1_ext rfl]
  exact count_value x1 n

/-- The mean of the incoming rows at (n, d). -/
theorem mean1 (h0 : ∀ n d, x0 (ix2 n d) = ((xr n d : ℝ) : EReal)) (n : Fin 10000) (d : Fin 512) :
    val_main_v22 (F := Ideal) x0 x1 (ix2 n d)
      = Ideal.div (0 + ∑ e ∈ landing (val_main_v12 (F := Ideal) x1) n,
          ((xr (rowOf hN (val_main_v9 (F := Ideal) x1) e) d : ℝ) : EReal))
          ((cnt (landing (val_main_v12 (F := Ideal) x1)) n : ℝ) : EReal) := by
  rw [val_main_v22_apply, Ideal.hostDivf_def, agg1 x0 x1 xr h0, div1]

/-- THE FIRST LAYER before max(·, 0). -/
theorem pre1 (h0 : ∀ n d, x0 (ix2 n d) = ((xr n d : ℝ) : EReal)) (h2 : ∀ k d, x2 (ix2 k d) = ((W1l k d : ℝ) : EReal))
    (h3 : ∀ k d, x3 (ix2 k d) = ((W1r k d : ℝ) : EReal)) (h4 : ∀ k, x4 (ix1 k) = ((b1 k : ℝ) : EReal))
    (n : Fin 10000) (c : Fin 128) :
    val_main_v30 (F := Ideal) x0 x1 x2 x3 x4 (ix2 n c)
      = ((layer (landing (val_main_v12 (F := Ideal) x1)) (rowOf hN (val_main_v9 (F := Ideal) x1)) xr W1l W1r b1 n c : ℝ)
          : EReal) := by
  rw [← layer_coe, val_main_v30_apply, val_main_v27_apply, val_main_v24_apply, val_main_v26_apply,
    Ideal.addf_def, Ideal.addf_def]
  refine congrArg₂ (· + ·) (congrArg₂ (· + ·) ?_ ?_) ?_
  · refine Finset.sum_congr rfl fun d _ => ?_
    rw [show lidx_main_v24 (ix2 n c) d = ix2 n d from ix2_ext rfl rfl,
      show ridx_main_v24 (ix2 n c) d = ix2 d c from ix2_ext rfl rfl,
      mean1 x0 x1 xr h0, val_main_v23_apply,
      show idx_main_v23 (ix2 d c) = ix2 c d from ix2_ext rfl rfl, h2]
  · refine Finset.sum_congr rfl fun d _ => ?_
    rw [show lidx_main_v26 (ix2 n c) d = ix2 n d from ix2_ext rfl rfl,
      show ridx_main_v26 (ix2 n c) d = ix2 d c from ix2_ext rfl rfl,
      h0, val_main_v25_apply, show idx_main_v25 (ix2 d c) = ix2 c d from ix2_ext rfl rfl, h3]
  · rw [val_main_v29_apply, val_main_v28_apply,
      show idx_main_v28 (idx_main_v29 (ix2 n c)) = ix1 c from ix1_ext rfl, h4]

/-- THE HIDDEN ARRAY: the first layer after max(·, 0). -/
theorem hidden (h0 : ∀ n d, x0 (ix2 n d) = ((xr n d : ℝ) : EReal)) (h2 : ∀ k d, x2 (ix2 k d) = ((W1l k d : ℝ) : EReal))
    (h3 : ∀ k d, x3 (ix2 k d) = ((W1r k d : ℝ) : EReal)) (h4 : ∀ k, x4 (ix1 k) = ((b1 k : ℝ) : EReal))
    (n : Fin 10000) (c : Fin 128) :
    val_main_v31 (F := Ideal) x0 x1 x2 x3 x4 (ix2 n c)
      = ((relu (layer (landing (val_main_v12 (F := Ideal) x1)) (rowOf hN (val_main_v9 (F := Ideal) x1)) xr W1l W1r b1) n c
          : ℝ) : EReal) := by
  rw [val_main_v31_apply, Ideal.maximumf_def, pre1 x0 x1 x2 x3 x4 xr W1l W1r b1 h0 h2 h3 h4, val_main_call0_v0_apply,
    val_main_call0_cst_apply, Ideal.ofBits_def, Ideal.ofBits_zero_f32, ← relu_coe]

end

end Cert.Sage.Ref

end
-- ==== Proof.RefValue.lean ====
/-
  The reference's result read at an index is the network, on real inputs.

  The second layer repeats the first on the hidden array: it gathers the hidden rows by the same source column,
  scatters them by the same destination column, divides by the same count, and multiplies with the second layer's
  weights. Entry (n, k) of the result is `Cert.Sage.net` at (n, k).
-/
import proofs.«145033_j42176578846858_2_alg».proof.Proof.Gen.ReferenceIdeal.Read
import Idealize.ShloMosaic.Lib.IdealHost
import proofs.«145033_j42176578846858_2_alg».proof.Proof.RefLayer1

noncomputable section

open scoped BigOperators

namespace Cert.Sage.Ref

open Cert.ReferenceIdeal Cert.ReferenceIdeal.Gen Cert.ReferenceIdeal.Read Idealize.ShloMosaic Idealize.ShloMosaic.ValueIdx

/-- The second layer reads the same source column as the first. -/
theorem src_again (x1 : (⟨S2x160000, .i32⟩ : BufTy).Contents (Elt Ideal)) :
    val_main_v37 (F := Ideal) x1 = val_main_v9 (F := Ideal) x1 := rfl

/-- The second layer scatters by the same destination column as the first. -/
theorem dst_again (x1 : (⟨S2x160000, .i32⟩ : BufTy).Contents (Elt Ideal)) :
    val_main_v40 (F := Ideal) x1 = val_main_v12 (F := Ideal) x1 := rfl

section
variable (x0 : (⟨S10000x512, .f32⟩ : BufTy).Contents (Elt Ideal)) (x1 : (⟨S2x160000, .i32⟩ : BufTy).Contents (Elt Ideal))
  (x2 x3 : (⟨S128x512, .f32⟩ : BufTy).Contents (Elt Ideal)) (x4 : (⟨S128, .f32⟩ : BufTy).Contents (Elt Ideal))
  (x5 x6 : (⟨S64x128, .f32⟩ : BufTy).Contents (Elt Ideal)) (x7 : (⟨S64, .f32⟩ : BufTy).Contents (Elt Ideal))
  (xr : Fin 10000 → Fin 512 → ℝ) (W1l W1r : Fin 128 → Fin 512 → ℝ) (b1 : Fin 128 → ℝ)
  (W2l W2r : Fin 64 → Fin 128 → ℝ) (b2 : Fin 64 → ℝ)

/-- The second layer's scatter of rows has the dimension numbers of a scatter of rows. -/
theorem rows128_eq : scatter_S10000x128_S160000x1_S160000x128_1_0_0_1
    = Cert.LibRowScatter.rowDims 10000 128 160000 scatter_S10000x128_S160000x1_S160000x128_1_0_0_1_wf := rfl

/-- The second layer's gather of rows has the dimension numbers of a gather of rows. -/
theorem gather128_eq : gather_S10000x128_S160000x1_S160000x128_1_0_n_n_0_1_1128
    = Cert.LibRowGather.rowsDims 10000 128 160000 gather_S10000x128_S160000x1_S160000x128_1_0_n_n_0_1_1128_wf := rfl

/-- The aggregated hidden rows: zero plus, over the edges landing on n, the source node's hidden entry. -/
theorem agg2 (h0 : ∀ n d, x0 (ix2 n d) = ((xr n d : ℝ) : EReal)) (h2 : ∀ k d, x2 (ix2 k d) = ((W1l k d : ℝ) : EReal))
    (h3 : ∀ k d, x3 (ix2 k d) = ((W1r k d : ℝ) : EReal)) (h4 : ∀ k, x4 (ix1 k) = ((b1 k : ℝ) : EReal))
    (n : Fin 10000) (c : Fin 128) :
    val_main_v41 (F := Ideal) x0 x1 x2 x3 x4 (ix2 n c)
      = 0 + ∑ e ∈ landing (val_main_v12 (F := Ideal) x1) n,
          ((relu (layer (landing (val_main_v12 (F := Ideal) x1)) (rowOf hN (val_main_v9 (F := Ideal) x1)) xr W1l W1r b1)
            (rowOf hN (val_main_v9 (F := Ideal) x1) e) c : ℝ) : EReal) := by
  rw [val_main_v41, Host.scatterAdd, Ideal.hostScatterAdd_def, rows128_eq, dst_again,
    Cert.LibRowScatter.hostScatterAdd_rows_apply, val_main_v39_apply, val_main_cst_6_apply, Ideal.ofBits_def,
    Ideal.ofBits_zero_f32]
  refine congrArg (0 + ·) (Finset.sum_congr rfl fun e _ => ?_)
  rw [val_main_v38, gather128_eq, src_again, Cert.LibRowGather.gather_rows_apply hN,
    hidden x0 x1 x2 x3 x4 xr W1l W1r b1 h0 h2 h3 h4]
  rfl

/-- The divisor, as the second quotient reads it at (n, c). -/
theorem div2 (n : Fin 10000) (c : Fin 128) :
    val_main_v49 (F := Ideal) x1 (ix2 n c) = ((cnt (landing (val_main_v12 (F := Ideal) x1)) n : ℝ) : EReal) := by
  rw [val_main_v49_apply, val_main_v48_apply,
    show idx_main_v48 (idx_main_v49 (ix2 n c)) = ix1 n from ix1_ext rfl, count_again]
  exact count_value x1 n

/-- THE RESULT: entry (n, k) is the network. -/
theorem ref_value (h0 : ∀ n d, x0 (ix2 n d) = ((xr n d : ℝ) : EReal)) (h2 : ∀ k d, x2 (ix2 k d) = ((W1l k d : ℝ) : EReal))
    (h3 : ∀ k d, x3 (ix2 k d) = ((W1r k d : ℝ) : EReal)) (h4 : ∀ k, x4 (ix1 k) = ((b1 k : ℝ) : EReal))
    (h5 : ∀ k d, x5 (ix2 k d) = ((W2l k d : ℝ) : EReal)) (h6 : ∀ k d, x6 (ix2 k d) = ((W2r k d : ℝ) : EReal))
    (h7 : ∀ k, x7 (ix1 k) = ((b2 k : ℝ) : EReal)) (n : Fin 10000) (k : Fin 64) :
    val_main_v58 (F := Ideal) x0 x1 x2 x3 x4 x5 x6 x7 (ix2 n k)
      = ((net (landing (val_main_v12 (F := Ideal) x1)) (rowOf (N := 10000) (by norm_num) (val_main_v9 (F := Ideal) x1))
          xr W1l W1r b1 W2l W2r b2 n k : ℝ) : EReal) := by
  rw [net, ← layer_coe, val_main_v58_apply, val_main_v55_apply, val_main_v52_apply, val_main_v54_apply,
    Ideal.addf_def, Ideal.addf_def]
  refine congrArg₂ (· + ·) (congrArg₂ (· + ·) ?_ ?_) ?_
  · refine Finset.sum_congr rfl fun c _ => ?_
    rw [show lidx_main_v52 (ix2 n k) c = ix2 n c from ix2_ext rfl rfl,
      show ridx_main_v52 (ix2 n k) c = ix2 c k from ix2_ext rfl rfl,
      val_main_v50_apply, Ideal.hostDivf_def, agg2 x0 x1 x2 x3 x4 xr W1l W1r b1 h0 h2 h3 h4, div2,
      val_main_v51_apply, show idx_main_v51 (ix2 c k) = ix2 k c from ix2_ext rfl rfl, h5]
  · refine Finset.sum_congr rfl fun c _ => ?_
    rw [show lidx_main_v54 (ix2 n k) c = ix2 n c from ix2_ext rfl rfl,
      show ridx_main_v54 (ix2 n k) c = ix2 c k from ix2_ext rfl rfl,
      hidden x0 x1 x2 x3 x4 xr W1l W1r b1 h0 h2 h3 h4, val_main_v53_apply,
      show idx_main_v53 (ix2 c k) = ix2 k c from ix2_ext rfl rfl, h6]
  · rw [val_main_v57_apply, val_main_v56_apply,
      show idx_main_v56 (idx_main_v57 (ix2 n k)) = ix1 k from ix1_ext rfl, h7]

end

end Cert.Sage.Ref

end
-- ==== Proof.Finite.lean ====
/-
  From the precondition to real numbers.

  The precondition says, for each float input x, that |x| < +∞ at every entry (an `and` over all entries, and the
  `and` of the seven results). An extended real whose absolute value is below +∞ is neither infinity, so it is a real
  number: every entry of every float input is the inclusion of a real.
-/
import proofs.«145033_j42176578846858_2_alg».proof.Pre_finite_inputs
import proofs.«145033_j42176578846858_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Affine
import Idealize.ShloMosaic.Lib.Pipeline.Value

noncomputable section

namespace Cert.Sage.Finite

open Idealize.ShloMosaic Idealize.ShloMosaic.ValueIdx

instance : Subsingleton (⟨0, ![]⟩ : Shape).Idx := ⟨fun a b => funext fun d => d.elim0⟩

/-- The f32 word of +∞. -/
theorem top_f32 : Ideal.ofBits .f32 0x7F800000#32 = ⊤ := by simp [Ideal.ofBits, Ideal.ieee]

/-- An extended real whose absolute value is below +∞ is a real number. -/
theorem real_of_abs_lt_top (a : EReal) (h : max a (-a) < ⊤) : ∃ r : ℝ, a = (r : EReal) := by
  induction a using EReal.rec with
  | bot => simp at h
  | coe r => exact ⟨r, rfl⟩
  | top => simp at h

/-- "all(|x| < +∞)" holds: every entry of x is a real number. -/
theorem real_of_all {s : Shape} {axes : List (Fin s.rank)} (x : FVec Ideal s .f32)
    (hb : (⟨0, ![]⟩ : Shape).BroadcastsInDim s ![]) (hr : s.ReducesTo axes ⟨0, ![]⟩)
    (hu : 0 < (⟨0, ![]⟩ : Shape).numel)
    (h : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) :
    ∃ r : ℝ, x i = (r : EReal) := by
  have h1 := Host.reduce_andi_all _ _ hr hu ix0 h i
  have hb' : broadcastInDim s ![] hb (constant (F := Ideal) ⟨0, ![]⟩ .f32 0x7F800000#32) i = ⊤ :=
    (broadcastInDim_apply _ hb _ i (fun a => a.elim0) (fun a => a.elim0)).trans top_f32
  have h2 : Ideal.cmp .olt (max (x i) (-(x i))) ⊤ = 1#1 := by
    rw [← hb']; exact h1
  refine real_of_abs_lt_top (x i) ?_
  unfold Ideal.cmp at h2
  by_contra hlt
  simp [hlt] at h2

open Cert.Pre_finite_inputs in
/-- The precondition gives real entries for all seven float inputs. -/
theorem reals_of_pre (a0 : FVec Ideal S10000x512 .f32) (a1 : IVec S2x160000 32) (a2 a3 : FVec Ideal S128x512 .f32)
    (a4 : FVec Ideal S128 .f32) (a5 a6 : FVec Ideal S64x128 .f32) (a7 : FVec Ideal S64 .f32)
    (h : fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) := by
  have h' := congrFun h ix0
  dsimp only [fn, fn_part1] at h'
  obtain ⟨h', q7⟩ := IntOp.andi_eq_one.mp h'
  obtain ⟨h', q6⟩ := IntOp.andi_eq_one.mp h'
  obtain ⟨h', q5⟩ := IntOp.andi_eq_one.mp h'
  obtain ⟨h', q4⟩ := IntOp.andi_eq_one.mp h'
  obtain ⟨h', q3⟩ := IntOp.andi_eq_one.mp h'
  obtain ⟨q0, q2⟩ := IntOp.andi_eq_one.mp h'
  exact ⟨real_of_all a0 _ _ _ q0, real_of_all a2 _ _ _ q2, real_of_all a3 _ _ _ q3, real_of_all a4 _ _ _ q4,
    real_of_all a5 _ _ _ q5, real_of_all a6 _ _ _ q6, real_of_all a7 _ _ _ q7⟩

end Cert.Sage.Finite

end
-- ==== Proof.Bridge.lean ====
/-
  The two programs compute one array.

  Under the precondition every float input is real. Then the reference's result, read at any entry, is the two-layer
  network on the reals over the graph its columns describe, and so is the kernel's result over the graph ITS columns
  describe; both programs cut the same two columns out of the same edge array by the same operations, so the graphs are
  one graph and the two results are equal entry by entry.
-/
import proofs.«145033_j42176578846858_2_alg».proof.Proof.KernelValue
import proofs.«145033_j42176578846858_2_alg».proof.Proof.RefValue
import proofs.«145033_j42176578846858_2_alg».proof.Proof.Finite

set_option maxRecDepth 16384

noncomputable section

namespace Cert.Sage

open Idealize.ShloMosaic Idealize.ShloMosaic.TcCoe Idealize.ShloMosaic.ValueIdx Idealize.SL.Sem

/-- The reference's result on the kernel's launch arrays is the kernel's result. -/
theorem bridge (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) = fun _ => 1#1) :
    Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.Fold.result m c := by
  obtain ⟨r0, r2, r3, r4, r5, r6, r7⟩ := Cert.Sage.Finite.reals_of_pre _ _ _ _ _ _ _ _ hpre
  choose x0 hx0 using r0
  choose w2 hw2 using r2
  choose w3 hw3 using r3
  choose v4 hv4 using r4
  choose w5 hw5 using r5
  choose w6 hw6 using r6
  choose v7 hv7 using r7
  funext i
  obtain ⟨n, k, rfl⟩ : ∃ (n : Fin 10000) (k : Fin 64), i = ix2 n k := ⟨i 0, i 1, eq_ix2 i⟩
  rw [Cert.Sage.Ref.ref_value _ _ _ _ _ _ _ _ (fun n d => x0 (ix2 n d)) (fun k d => w2 (ix2 k d)) (fun k d => w3 (ix2 k d))
      (fun k => v4 (ix1 k)) (fun k d => w5 (ix2 k d)) (fun k d => w6 (ix2 k d)) (fun k => v7 (ix1 k))
      (fun n d => hx0 _) (fun k d => hw2 _) (fun k d => hw3 _) (fun k => hv4 _) (fun k d => hw5 _) (fun k d => hw6 _)
      (fun k => hv7 _) n k,
    Cert.KernelIdeal.Value.result_apply m c (fun n d => x0 (ix2 n d)) (fun k d => w2 (ix2 k d)) (fun k d => w3 (ix2 k d))
      (fun k => v4 (ix1 k)) (fun k d => w5 (ix2 k d)) (fun k d => w6 (ix2 k d)) (fun k => v7 (ix1 k))
      (fun n d => hx0 _) (fun k d => hw2 _) (fun k d => hw3 _) (fun k => hv4 _) (fun k d => hw5 _) (fun k d => hw6 _)
      (fun k => hv7 _) n k]
  rfl

end Cert.Sage

end
-- ==== Proof.lean ====
/-
  A two-layer mean-aggregation graph network (SAGE): the kernel against its reference, over the extended reals.

  A layer sends node features x to  mean · W_lᵀ + x · W_rᵀ + b,  where mean(n) averages x(source of e) over the
  edges e landing on n (dividing by max(in-degree, 1)); the network is a layer, max(·, 0), and a second layer.
  The reference computes exactly that. The kernel first multiplies every node's row by W_lᵀ and by W_rᵀ (a kernel region
  over five blocks of 2000 rows), averages the NARROWER rows of x · W_lᵀ over the landing edges (host gather and
  scatter-add, times the reciprocal of the divisor), and adds x · W_rᵀ and the bias in a second region; then the same
  for the second layer. Averaging is a finite sum, hence linear, so projecting before or after it gives the same
  array — provided the entries are real numbers, which the precondition (every float input finite) supplies:
  with an infinite entry a sum of products need not distribute.

  The frames of the two kernel programs are the generated ones; the reference's frame is its generated run with the
  result dropped. The idealization rewrote nothing, so `preserves` is trivial. For `algebraic`: the kernel's run names
  its result buffer (`KernelRun`, `KernelFold`: the buffer contents folded through the four regions and the host
  stretches between them), `KernelValue` and `RefValue` read both results at an entry as the same real network, and
  `Bridge` joins them.
-/
import proofs.«145033_j42176578846858_2_alg».proof.Defs
import proofs.«145033_j42176578846858_2_alg».proof.Proof.Gen.Kernel
import proofs.«145033_j42176578846858_2_alg».proof.Proof.Gen.Kernel.Skeleton
import proofs.«145033_j42176578846858_2_alg».proof.Proof.Gen.Kernel.Launch
import proofs.«145033_j42176578846858_2_alg».proof.Proof.Gen.Kernel.Points
import proofs.«145033_j42176578846858_2_alg».proof.Proof.Gen.Kernel.Frame
import proofs.«145033_j42176578846858_2_alg».proof.Proof.Gen.KernelIdeal
import proofs.«145033_j42176578846858_2_alg».proof.Proof.Gen.KernelIdeal.Skeleton
import proofs.«145033_j42176578846858_2_alg».proof.Proof.Gen.KernelIdeal.Launch
import proofs.«145033_j42176578846858_2_alg».proof.Proof.Gen.KernelIdeal.Points
import proofs.«145033_j42176578846858_2_alg».proof.Proof.Gen.KernelIdeal.Frame
import proofs.«145033_j42176578846858_2_alg».proof.Proof.Gen.ReferenceIdeal
import proofs.«145033_j42176578846858_2_alg».proof.Proof.Gen.Pre_finite_inputs
import proofs.«145033_j42176578846858_2_alg».proof.Proof.Gen.ReferenceIdeal.Run
import proofs.«145033_j42176578846858_2_alg».proof.Proof.Gen.ReferenceIdeal.Read
import proofs.«145033_j42176578846858_2_alg».proof.Proof.KernelRun
import proofs.«145033_j42176578846858_2_alg».proof.Proof.KernelFold
import proofs.«145033_j42176578846858_2_alg».proof.Proof.Bridge
import Idealize.ShloMosaic.Adequacy
import Idealize.ShloMosaic.Init

noncomputable section

namespace Cert.Proof

open Idealize.ShloMosaic Idealize.SL.Sem

/-- The word-level kernel runs and leaves its arguments as launched. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- The reference is a line of host operations: it runs, and writes no argument. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The idealized kernel is the kernel's own text read over the extended reals: nothing was rewritten. -/
theorem preserves : Cert.preserves_Kernel_KernelIdeal := trivial

/-- From memories agreeing on the arguments, both idealized programs run and end with one and the same result array:
    the network of the header on the reals, included in the extended reals. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.KernelIdeal.Fold.result m c, ?_, ?_⟩
  · exact (θ_run Cert.KernelIdeal.defs _ _).mono
      (fun r h c => ⟨(h c).1.trans (Cert.KernelIdeal.Fold.W7_main_v45 m ρ c), (h c).2⟩)
      (Cert.KernelIdeal.Run.run_main m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v58_eq, e0, e1, e2, e3, e4, e5, e6, e7]
    exact Cert.Sage.bridge m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
